-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x768 : Shape := ⟨2, ![8192, 768]⟩
abbrev S768x8 : Shape := ⟨2, ![768, 8]⟩
abbrev S8x768x768 : Shape := ⟨3, ![8, 768, 768]⟩
abbrev S8x768 : Shape := ⟨2, ![8, 768]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel
  bcast_S_S768x8 : S_.BroadcastsInDim S768x8 (![] : Fin 0 → Fin S768x8.rank)
  reducesTo_S768x8_S_d0_1 : S768x8.ReducesTo [0, 1] S_
  bcast_S_S8x768x768 : S_.BroadcastsInDim S8x768x768 (![] : Fin 0 → Fin S8x768x768.rank)
  reducesTo_S8x768x768_S_d0_1_2 : S8x768x768.ReducesTo [0, 1, 2] S_
  bcast_S_S8x768 : S_.BroadcastsInDim S8x768 (![] : Fin 0 → Fin S8x768.rank)
  reducesTo_S8x768_S_d0_1 : S8x768.ReducesTo [0, 1] S_

variable [Facts]

def fn_part1 {F : FTy → Type} [FloatOps F] (main_v13 : IVec S_ 1) (main_v16 : IVec S8x768 1) : IVec S_ 1 :=
  let main_c_5 : IVec S_ 1 := constantI S_ 1 1#1
  let main_v17 : IVec S_ 1 := (fun x v => Host.reduce IntOp.andi x v reducesTo_S8x768_S_d0_1 h_S_) main_v16 main_c_5
  let main_v18 : IVec S_ 1 := andi main_v13 main_v17
  main_v18

def fn {F : FTy → Type} [FloatOps F] (main_arg0 : FVec F S8192x768 .f32) (main_arg1 : FVec F S768x8 .f32) (main_arg2 : FVec F S8x768x768 .f32) (main_arg3 : FVec F S8x768 .f32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  let main_v4 : FVec F S768x8 .f32 := Host.absf main_arg1
  let main_cst_0 : FVec F S_ .f32 := constant S_ .f32 0x7F800000#32
  let main_v5 : FVec F S768x8 .f32 := broadcastInDim S768x8 ![] bcast_S_S768x8 main_cst_0
  let main_v6 : IVec S768x8 1 := cmpf .olt main_v4 main_v5
  let main_c_1 : IVec S_ 1 := constantI S_ 1 1#1
  let main_v7 : IVec S_ 1 := (fun x v => Host.reduce IntOp.andi x v reducesTo_S768x8_S_d0_1 h_S_) main_v6 main_c_1
  let main_v8 : IVec S_ 1 := andi main_v3 main_v7
  let main_v9 : FVec F S8x768x768 .f32 := Host.absf main_arg2
  let main_cst_2 : FVec F S_ .f32 := constant S_ .f32 0x7F800000#32
  let main_v10 : FVec F S8x768x768 .f32 := broadcastInDim S8x768x768 ![] bcast_S_S8x768x768 main_cst_2
  let main_v11 : IVec S8x768x768 1 := cmpf .olt main_v9 main_v10
  let main_c_3 : IVec S_ 1 := constantI S_ 1 1#1
  let main_v12 : IVec S_ 1 := (fun x v => Host.reduce IntOp.andi x v reducesTo_S8x768x768_S_d0_1_2 h_S_) main_v11 main_c_3
  let main_v13 : IVec S_ 1 := andi main_v8 main_v12
  let main_v14 : FVec F S8x768 .f32 := Host.absf main_arg3
  let main_cst_4 : FVec F S_ .f32 := constant S_ .f32 0x7F800000#32
  let main_v15 : FVec F S8x768 .f32 := broadcastInDim S8x768 ![] bcast_S_S8x768 main_cst_4
  let main_v16 : IVec S8x768 1 := cmpf .olt main_v14 main_v15
  fn_part1 (F := F) main_v13 main_v16
-- ==== Kernel.lean ====
abbrev S8192x768 : Shape := ⟨2, ![8192, 768]⟩
abbrev S768x8 : Shape := ⟨2, ![768, 8]⟩
abbrev S8x768x768 : Shape := ⟨3, ![8, 768, 768]⟩
abbrev S8x768 : Shape := ⟨2, ![8, 768]⟩
abbrev S1024x768 : Shape := ⟨2, ![1024, 768]⟩
abbrev S1024x8 : Shape := ⟨2, ![1024, 8]⟩
abbrev S1024 : Shape := ⟨1, ![1024]⟩
abbrev S1024x1 : Shape := ⟨2, ![1024, 1]⟩
abbrev S1x768x768 : Shape := ⟨3, ![1, 768, 768]⟩
abbrev S768x768 : Shape := ⟨2, ![768, 768]⟩

abbrev nBuf : Space → Nat
  | .hbm => 5
  | .vmem => 7
  | .smem => 0
  | _ => 0

abbrev bufTy : (tb : Table) → Fin (tcTables nBuf tb) → BufTy
  | .hbm, ⟨0, _⟩ => ⟨S8192x768, .f32⟩
  | .hbm, ⟨1, _⟩ => ⟨S768x8, .f32⟩
  | .hbm, ⟨2, _⟩ => ⟨S8x768x768, .f32⟩
  | .hbm, ⟨3, _⟩ => ⟨S8x768, .f32⟩
  | .hbm, ⟨4, _⟩ => ⟨S8192x768, .f32⟩
  | .local _ .vmem, ⟨0, _⟩ => ⟨S1024x768, .f32⟩
  | .local _ .vmem, ⟨1, _⟩ => ⟨S1024x768, .f32⟩
  | .local _ .vmem, ⟨2, _⟩ => ⟨S768x8, .f32⟩
  | .local _ .vmem, ⟨3, _⟩ => ⟨S8x768x768, .f32⟩
  | .local _ .vmem, ⟨4, _⟩ => ⟨S8x768, .f32⟩
  | .local _ .vmem, ⟨5, _⟩ => ⟨S1024x768, .f32⟩
  | .local _ .vmem, ⟨6, _⟩ => ⟨S1024x768, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1024x768_S1024x768_0_0 : ∀ a, (![0, 0] : Fin 2 → Nat) a + S1024x768.size a ≤ S1024x768.size a
  h_S1024x768 : 0 < S1024x768.numel
  inb_S768x8_S768x8_0_0 : ∀ a, (![0, 0] : Fin 2 → Nat) a + S768x8.size a ≤ S768x8.size a
  h_S768x8 : 0 < S768x8.numel
  reduces_S1024x8_S1024 : S1024x8.Reduces [1] S1024
  shapeCasts_S1024_S1024x1 : S1024.ShapeCasts S1024x1
  broadcasts_S1024x1_S1024x8 : S1024x1.Broadcasts S1024x8
  inb_S8x768_S8x768_0_0 : ∀ a, (![0, 0] : Fin 2 → Nat) a + S8x768.size a ≤ S8x768.size a
  h_S8x768 : 0 < S8x768.numel
  bitsLt_bf16_f32 : FTy.bits .bf16 < FTy.bits .f32
  inb_S8x768x768_S1x768x768_0_0_0 : ∀ a, (![0, 0, 0] : Fin 3 → Nat) a + S1x768x768.size a ≤ S8x768x768.size a
  h_S1x768x768 : 0 < S1x768x768.numel
  shapeCasts_S1x768x768_S768x768 : S1x768x768.ShapeCasts S768x768
  inb_S8x768x768_S1x768x768_1_0_0 : ∀ a, (![1, 0, 0] : Fin 3 → Nat) a + S1x768x768.size a ≤ S8x768x768.size a
  slices_S1024x8_o0_0_S1024x1 : S1024x8.Slices ![0, 0] S1024x1
  broadcasts_S1024x1_S1024x768 : S1024x1.Broadcasts S1024x768
  slices_S1024x8_o0_1_S1024x1 : S1024x8.Slices ![0, 1] S1024x1
  inb_S8x768x768_S1x768x768_2_0_0 : ∀ a, (![2, 0, 0] : Fin 3 → Nat) a + S1x768x768.size a ≤ S8x768x768.size a
  inb_S8x768x768_S1x768x768_3_0_0 : ∀ a, (![3, 0, 0] : Fin 3 → Nat) a + S1x768x768.size a ≤ S8x768x768.size a
  slices_S1024x8_o0_2_S1024x1 : S1024x8.Slices ![0, 2] S1024x1
  slices_S1024x8_o0_3_S1024x1 : S1024x8.Slices ![0, 3] S1024x1
  inb_S8x768x768_S1x768x768_4_0_0 : ∀ a, (![4, 0, 0] : Fin 3 → Nat) a + S1x768x768.size a ≤ S8x768x768.size a
  inb_S8x768x768_S1x768x768_5_0_0 : ∀ a, (![5, 0, 0] : Fin 3 → Nat) a + S1x768x768.size a ≤ S8x768x768.size a
  slices_S1024x8_o0_4_S1024x1 : S1024x8.Slices ![0, 4] S1024x1
  slices_S1024x8_o0_5_S1024x1 : S1024x8.Slices ![0, 5] S1024x1
  inb_S8x768x768_S1x768x768_6_0_0 : ∀ a, (![6, 0, 0] : Fin 3 → Nat) a + S1x768x768.size a ≤ S8x768x768.size a
  inb_S8x768x768_S1x768x768_7_0_0 : ∀ a, (![7, 0, 0] : Fin 3 → Nat) a + S1x768x768.size a ≤ S8x768x768.size a
  slices_S1024x8_o0_6_S1024x1 : S1024x8.Slices ![0, 6] S1024x1
  slices_S1024x8_o0_7_S1024x1 : S1024x8.Slices ![0, 7] S1024x1
  dot_S1024x768_S768x8_S1024x8_1_0_0_1_n_n_wf : DotDims.WF S1024x768 S768x8 S1024x8 [1] [0] [0] [1] [] []
  dot_S1024x8_S8x768_S1024x768_1_0_0_1_n_n_wf : DotDims.WF S1024x8 S8x768 S1024x768 [1] [0] [0] [1] [] []
  dot_S1024x768_S768x768_S1024x768_1_0_0_1_n_n_wf : DotDims.WF S1024x768 S768x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S8192x768.size a
  hwx0_0 : ∀ i : grid0.Coords, EltTy.bits .f32 = 32 ∨ (Rect.block (s := S8192x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x8.size a ≤ S768x8.size a
  hwx0_1 : ∀ i : grid0.Coords, EltTy.bits .f32 = 32 ∨ (Rect.block (s := S768x8) S768x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x768x768.size a ≤ S8x768x768.size a
  hwx0_2 : ∀ i : grid0.Coords, EltTy.bits .f32 = 32 ∨ (Rect.block (s := S8x768x768) S8x768x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x768.size a ≤ S8x768.size a
  hwx0_3 : ∀ i : grid0.Coords, EltTy.bits .f32 = 32 ∨ (Rect.block (s := S8x768) S8x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x768.size a ≤ S8192x768.size a
  hwx0_4 : ∀ i : grid0.Coords, EltTy.bits .f32 = 32 ∨ (Rect.block (s := S8192x768) S1024x768.size (cc0_transform_4 i) (hinb0_4 i)).WholeWords (EltTy.packing .f32)

variable [Facts₀]

def dot_S1024x768_S768x8_S1024x8_1_0_0_1_n_n : DotDims S1024x768 S768x8 S1024x8 where
  lhsContracting := [1]
  rhsContracting := [0]
  lhsNonContracting := [0]
  rhsNonContracting := [1]
  lhsBatch := []
  rhsBatch := []
  wf := dot_S1024x768_S768x8_S1024x8_1_0_0_1_n_n_wf
def dot_S1024x8_S8x768_S1024x768_1_0_0_1_n_n : DotDims S1024x8 S8x768 S1024x768 where
  lhsContracting := [1]
  rhsContracting := [0]
  lhsNonContracting := [0]
  rhsNonContracting := [1]
  lhsBatch := []
  rhsBatch := []
  wf := dot_S1024x8_S8x768_S1024x768_1_0_0_1_n_n_wf
def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf

abbrev win0_0 : Pipeline.Window sig grid0 :=
  Pipeline.Window.ofSpec (Memref.whole main_arg0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x768 : Shape := ⟨2, ![8192, 768]⟩
abbrev S768x8 : Shape := ⟨2, ![768, 8]⟩
abbrev S8x768x768 : Shape := ⟨3, ![8, 768, 768]⟩
abbrev S8x768 : Shape := ⟨2, ![8, 768]⟩
abbrev S8192x8 : Shape := ⟨2, ![8192, 8]⟩
abbrev S_ : Shape := ⟨0, ![]⟩
abbrev S8192 : Shape := ⟨1, ![8192]⟩
abbrev S8192x1 : Shape := ⟨2, ![8192, 1]⟩
abbrev S1x768x768 : Shape := ⟨3, ![1, 768, 768]⟩
abbrev S768x768 : Shape := ⟨2, ![768, 768]⟩
abbrev S1x768 : Shape := ⟨2, ![1, 768]⟩
abbrev S768 : Shape := ⟨1, ![768]⟩

abbrev nBuf : Space → Nat
  | .hbm => 133
  | .vmem => 0
  | .smem => 0
  | _ => 0

abbrev hbmTy0_0 (i : Nat) : BufTy := match i % 128 with
  | 0 => ⟨S8192x768, .f32⟩
  | 1 => ⟨S768x8, .f32⟩
  | 2 => ⟨S8x768x768, .f32⟩
  | 3 => ⟨S8x768, .f32⟩
  | 4 => ⟨S8192x8, .f32⟩
  | 5 => ⟨S_, .f32⟩
  | 6 => ⟨S8192, .f32⟩
  | 7 => ⟨S_, .f32⟩
  | 8 => ⟨S8192, .f32⟩
  | 9 => ⟨S8192, .f32⟩
  | 10 => ⟨S8192x1, .f32⟩
  | 11 => ⟨S8192x8, .f32⟩
  | 12 => ⟨S8192x8, .f32⟩
  | 13 => ⟨S8192x8, .f32⟩
  | 14 => ⟨S_, .f32⟩
  | 15 => ⟨S8192, .f32⟩
  | 16 => ⟨S8192x1, .f32⟩
  | 17 => ⟨S8192x8, .f32⟩
  | 18 => ⟨S8192x8, .f32⟩
  | 19 => ⟨S_, .f32⟩
  | 20 => ⟨S8192x768, .f32⟩
  | 21 => ⟨S1x768x768, .f32⟩
  | 22 => ⟨S768x768, .f32⟩
  | 23 => ⟨S8192x768, .f32⟩
  | 24 => ⟨S1x768, .f32⟩
  | 25 => ⟨S768, .f32⟩
  | 26 => ⟨S1x768, .f32⟩
  | 27 => ⟨S8192x768, .f32⟩
  | 28 => ⟨S8192x768, .f32⟩
  | 29 => ⟨S8192x1, .f32⟩
  | 30 => ⟨S8192, .f32⟩
  | 31 => ⟨S8192x1, .f32⟩
  | 32 => ⟨S8192x768, .f32⟩
  | 33 => ⟨S8192x768, .f32⟩
  | 34 => ⟨S8192x768, .f32⟩
  | 35 => ⟨S1x768x768, .f32⟩
  | 36 => ⟨S768x768, .f32⟩
  | 37 => ⟨S8192x768, .f32⟩
  | 38 => ⟨S1x768, .f32⟩
  | 39 => ⟨S768, .f32⟩
  | 40 => ⟨S1x768, .f32⟩
  | 41 => ⟨S8192x768, .f32⟩
  | 42 => ⟨S8192x768, .f32⟩
  | 43 => ⟨S8192x1, .f32⟩
  | 44 => ⟨S8192, .f32⟩
  | 45 => ⟨S8192x1, .f32⟩
  | 46 => ⟨S8192x768, .f32⟩
  | 47 => ⟨S8192x768, .f32⟩
  | 48 => ⟨S8192x768, .f32⟩
  | 49 => ⟨S1x768x768, .f32⟩
  | 50 => ⟨S768x768, .f32⟩
  | 51 => ⟨S8192x768, .f32⟩
  | 52 => ⟨S1x768, .f32⟩
  | 53 => ⟨S768, .f32⟩
  | 54 => ⟨S1x768, .f32⟩
  | 55 => ⟨S8192x768, .f32⟩
  | 56 => ⟨S8192x768, .f32⟩
  | 57 => ⟨S8192x1, .f32⟩
  | 58 => ⟨S8192, .f32⟩
  | 59 => ⟨S8192x1, .f32⟩
  | 60 => ⟨S8192x768, .f32⟩
  | 61 => ⟨S8192x768, .f32⟩
  | 62 => ⟨S8192x768, .f32⟩
  | 63 => ⟨S1x768x768, .f32⟩
  | 64 => ⟨S768x768, .f32⟩
  | 65 => ⟨S8192x768, .f32⟩
  | 66 => ⟨S1x768, .f32⟩
  | 67 => ⟨S768, .f32⟩
  | 68 => ⟨S1x768, .f32⟩
  | 69 => ⟨S8192x768, .f32⟩
  | 70 => ⟨S8192x768, .f32⟩
  | 71 => ⟨S8192x1, .f32⟩
  | 72 => ⟨S8192, .f32⟩
  | 73 => ⟨S8192x1, .f32⟩
  | 74 => ⟨S8192x768, .f32⟩
  | 75 => ⟨S8192x768, .f32⟩
  | 76 => ⟨S8192x768, .f32⟩
  | 77 => ⟨S1x768x768, .f32⟩
  | 78 => ⟨S768x768, .f32⟩
  | 79 => ⟨S8192x768, .f32⟩
  | 80 => ⟨S1x768, .f32⟩
  | 81 => ⟨S768, .f32⟩
  | 82 => ⟨S1x768, .f32⟩
  | 83 => ⟨S8192x768, .f32⟩
  | 84 => ⟨S8192x768, .f32⟩
  | 85 => ⟨S8192x1, .f32⟩
  | 86 => ⟨S8192, .f32⟩
  | 87 => ⟨S8192x1, .f32⟩
  | 88 => ⟨S8192x768, .f32⟩
  | 89 => ⟨S8192x768, .f32⟩
  | 90 => ⟨S8192x768, .f32⟩
  | 91 => ⟨S1x768x768, .f32⟩
  | 92 => ⟨S768x768, .f32⟩
  | 93 => ⟨S8192x768, .f32⟩
  | 94 => ⟨S1x768, .f32⟩
  | 95 => ⟨S768, .f32⟩
  | 96 => ⟨S1x768, .f32⟩
  | 97 => ⟨S8192x768, .f32⟩
  | 98 => ⟨S8192x768, .f32⟩
  | 99 => ⟨S8192x1, .f32⟩
  | 100 => ⟨S8192, .f32⟩
  | 101 => ⟨S8192x1, .f32⟩
  | 102 => ⟨S8192x768, .f32⟩
  | 103 => ⟨S8192x768, .f32⟩
  | 104 => ⟨S8192x768, .f32⟩
  | 105 => ⟨S1x768x768, .f32⟩
  | 106 => ⟨S768x768, .f32⟩
  | 107 => ⟨S8192x768, .f32⟩
  | 108 => ⟨S1x768, .f32⟩
  | 109 => ⟨S768, .f32⟩
  | 110 => ⟨S1x768, .f32⟩
  | 111 => ⟨S8192x768, .f32⟩
  | 112 => ⟨S8192x768, .f32⟩
  | 113 => ⟨S8192x1, .f32⟩
  | 114 => ⟨S8192, .f32⟩
  | 115 => ⟨S8192x1, .f32⟩
  | 116 => ⟨S8192x768, .f32⟩
  | 117 => ⟨S8192x768, .f32⟩
  | 118 => ⟨S8192x768, .f32⟩
  | 119 => ⟨S1x768x768, .f32⟩
  | 120 => ⟨S768x768, .f32⟩
  | 121 => ⟨S8192x768, .f32⟩
  | 122 => ⟨S1x768, .f32⟩
  | 123 => ⟨S768, .f32⟩
  | 124 => ⟨S1x768, .f32⟩
  | 125 => ⟨S8192x768, .f32⟩
  | 126 => ⟨S8192x768, .f32⟩
  | 127 => ⟨S8192x1, .f32⟩
  | _ => ⟨S8192x768, .f32⟩

abbrev hbmTy0_1 (i : Nat) : BufTy := match i % 128 with
  | 0 => ⟨S8192, .f32⟩
  | 1 => ⟨S8192x1, .f32⟩
  | 2 => ⟨S8192x768, .f32⟩
  | 3 => ⟨S8192x768, .f32⟩
  | 4 => ⟨S8192x768, .f32⟩
  | _ => ⟨S8192x768, .f32⟩

abbrev hbmTy (i : Nat) : BufTy := match i / 128 with
  | 0 => hbmTy0_0 i
  | 1 => hbmTy0_1 i
  | _ => ⟨S8192x768, .f32⟩

abbrev bufTy : (tb : Table) → Fin (tcTables nBuf tb) → BufTy
  | .hbm, ⟨i, _⟩ => hbmTy i
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩

abbrev nD : Nat := 1
abbrev τ : Topo := Topo.v7x

variable {F : FTy → Type} [FloatOps F]

class Facts₀ : Prop where
  reducesTo_S8192x8_S8192_d1 : S8192x8.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8_0_1 : S8192x1.BroadcastsInDim S8192x8 (![0, 1] : Fin 2 → Fin S8192x8.rank)
  bcast_S_S8192x768 : S_.BroadcastsInDim S8192x768 (![] : Fin 0 → Fin S8192x768.rank)
  slices_S8x768x768_S1x768x768_0_0_0 : S8x768x768.Slices ![0, 0, 0] S1x768x768
  shapeCasts_S1x768x768_S768x768 : S1x768x768.ShapeCasts S768x768
  slices_S8x768_S1x768_0_0 : S8x768.Slices ![0, 0] S1x768
  shapeCasts_S1x768_S768 : S1x768.ShapeCasts S768
  bcast_S768_S1x768_1 : S768.BroadcastsInDim S1x768 (![1] : Fin 1 → Fin S1x768.rank)
  bcast_S1x768_S8192x768_0_1 : S1x768.BroadcastsInDim S8192x768 (![0, 1] : Fin 2 → Fin S8192x768.rank)
  slices_S8192x8_S8192x1_0_0 : S8192x8.Slices ![0, 0] S8192x1
  shapeCasts_S8192x1_S8192 : S8192x1.ShapeCasts S8192
  bcast_S8192x1_S8192x768_0_1 : S8192x1.BroadcastsInDim S8192x768 (![0, 1] : Fin 2 → Fin S8192x768.rank)
  slices_S8x768x768_S1x768x768_1_0_0 : S8x768x768.Slices ![1, 0, 0] S1x768x768
  slices_S8x768_S1x768_1_0 : S8x768.Slices ![1, 0] S1x768
  slices_S8192x8_S8192x1_0_1 : S8192x8.Slices ![0, 1] S8192x1
  slices_S8x768x768_S1x768x768_2_0_0 : S8x768x768.Slices ![2, 0, 0] S1x768x768
  slices_S8x768_S1x768_2_0 : S8x768.Slices ![2, 0] S1x768
  slices_S8192x8_S8192x1_0_2 : S8192x8.Slices ![0, 2] S8192x1
  slices_S8x768x768_S1x768x768_3_0_0 : S8x768x768.Slices ![3, 0, 0] S1x768x768
  slices_S8x768_S1x768_3_0 : S8x768.Slices ![3, 0] S1x768
  slices_S8192x8_S8192x1_0_3 : S8192x8.Slices ![0, 3] S8192x1
  slices_S8x768x768_S1x768x768_4_0_0 : S8x768x768.Slices ![4, 0, 0] S1x768x768
  slices_S8x768_S1x768_4_0 : S8x768.Slices ![4, 0] S1x768
  slices_S8192x8_S8192x1_0_4 : S8192x8.Slices ![0, 4] S8192x1
  slices_S8x768x768_S1x768x768_5_0_0 : S8x768x768.Slices ![5, 0, 0] S1x768x768
  slices_S8x768_S1x768_5_0 : S8x768.Slices ![5, 0] S1x768
  slices_S8192x8_S8192x1_0_5 : S8192x8.Slices ![0, 5] S8192x1
  slices_S8x768x768_S1x768x768_6_0_0 : S8x768x768.Slices ![6, 0, 0] S1x768x768
  slices_S8x768_S1x768_6_0 : S8x768.Slices ![6, 0] S1x768
  slices_S8192x8_S8192x1_0_6 : S8192x8.Slices ![0, 6] S8192x1
  slices_S8x768x768_S1x768x768_7_0_0 : S8x768x768.Slices ![7, 0, 0] S1x768x768
  slices_S8x768_S1x768_7_0 : S8x768.Slices ![7, 0] S1x768
  slices_S8192x8_S8192x1_0_7 : S8192x8.Slices ![0, 7] S8192x1
  dot_S8192x768_S768x8_S8192x8_1_0_0_1_n_n_wf : DotDims.WF S8192x768 S768x8 S8192x8 [1] [0] [0] [1] [] []
  dot_S8192x768_S768x768_S8192x768_1_0_0_1_n_n_wf : DotDims.WF S8192x768 S768x768 S8192x768 [1] [0] [0] [1] [] []

variable [Facts₀]

def dot_S8192x768_S768x8_S8192x8_1_0_0_1_n_n : DotDims S8192x768 S768x8 S8192x8 where
  lhsContracting := [1]
  rhsContracting := [0]
  lhsNonContracting := [0]
  rhsNonContracting := [1]
  lhsBatch := []
  rhsBatch := []
  wf := dot_S8192x768_S768x8_S8192x8_1_0_0_1_n_n_wf
def dot_S8192x768_S768x768_S8192x768_1_0_0_1_n_n : DotDims S8192x768 S768x768 S8192x768 where
  lhsContracting := [1]
  rhsContracting := [0]
  lhsNonContracting := [0]
  rhsNonContracting := [1]
  lhsBatch := []
  rhsBatch := []
  wf := dot_S8192x768_S768x768_S8192x768_1_0_0_1_n_n_wf

class Facts : Prop extends Facts₀ where

variable [Facts]
-- ==== Proof.MoeSpec.lean ====
/-
  The mathematics of a dense mixture-of-experts layer, with no program in sight.

  A token's row of eight gate logits `l` is turned into eight weights by the softmax
  `w e = exp (l e - M) / ∑ j, exp (l j - M)`, `M` the row's maximum (taken from `-∞`, and once more against `-∞`).
  Each expert `e` offers the token a value `y e + b e` (a matrix product plus a bias), and the layer's output is the
  weighted sum `∑ e, w e * (y e + b e)`.

  Two ways of adding that up are compared here.  The REFERENCE order folds the eight terms `w e * (y e + b e)` from
  zero, one expert after the other.  The SPLIT order first takes the weighted bias `∑ j, w j * b j` as one product,
  then adds the even experts' `w e * y e` to it, adds the odd experts' `w e * y e` to a second accumulator that
  starts at zero, and adds the two accumulators.  On the extended reals addition is commutative and associative, so the
  grouping is free; what is NOT free is the distributive law `w * (y + b) = w * y + w * b`, which fails when `w` is
  negative or infinite and `y + b` is an indeterminate `∞ - ∞`.  It holds whenever `w` is a nonnegative real, and a
  softmax weight of a row of REAL logits is one: the maximum of finitely many reals is a real, the exponential of a real
  is a positive real, a finite sum of positive reals is a positive real, and a positive real divided by a positive real
  is a positive real.  That is the one place the finiteness of the inputs is used.
-/
import Idealize.ShloMosaic.Lib.ValueIdx
import Idealize.ShloMosaic.PureOps.Ideal.Laws

noncomputable section

open scoped BigOperators

namespace Cert.Moe

open Idealize.ShloMosaic Idealize.ShloMosaic.ValueIdx

/-! ## One row: the softmax weights -/

/-- The pattern of single precision's `-∞`, the value both row maxima start from. -/
def negInf : EReal := Ideal.ofBits .f32 0xFF800000#32

/-- That pattern denotes `⊥`. -/
theorem negInf_eq : negInf = ⊥ := by
  simp [negInf, Ideal.ofBits, Ideal.ieee]

/-- The maximum of a row of eight logits: the fold of `max` from `-∞`, then once more against `-∞`. -/
def rowMax (l : Fin 8 → EReal) : EReal := max negInf ((Finset.univ : Finset (Fin 8)).fold max negInf l)

/-- The unnormalised weight of expert `e`: the exponential of its logit less the row's maximum. -/
def rowExp (l : Fin 8 → EReal) (e : Fin 8) : EReal := Ideal.exp (l e - rowMax l)

/-- The softmax weight of expert `e`. -/
def softmaxRow (l : Fin 8 → EReal) (e : Fin 8) : EReal := Ideal.div (rowExp l e) (∑ j : Fin 8, rowExp l j)

/-- A fold of `max` from `⊥` over real entries is `⊥` on the empty set and a real otherwise. -/
theorem fold_max_real {ι : Type} [DecidableEq ι] (g : ι → EReal) (hg : ∀ j, ∃ r : ℝ, g j = (r : EReal)) (S : Finset ι) :
    (S = ∅ ∧ S.fold max ⊥ g = ⊥) ∨ ∃ r : ℝ, S.fold max ⊥ g = (r : EReal) := by
  induction S using Finset.induction_on with
  | empty => exact Or.inl ⟨rfl, Finset.fold_empty⟩
  | insert a S ha ih =>
    obtain ⟨ra, hra⟩ := hg a
    refine Or.inr ?_
    rw [Finset.fold_insert ha, hra]
    rcases ih with ⟨-, h⟩ | ⟨r, h⟩
    · exact ⟨ra, by rw [h]; exact max_eq_left bot_le⟩
    · rcases le_total ra r with hle | hle
      · exact ⟨r, by rw [h]; exact max_eq_right (EReal.coe_le_coe_iff.mpr hle)⟩
      · exact ⟨ra, by rw [h]; exact max_eq_left (EReal.coe_le_coe_iff.mpr hle)⟩

/-- The maximum of a row of real logits is a real. -/
theorem rowMax_real (l : Fin 8 → EReal) (hl : ∀ j, ∃ r : ℝ, l j = (r : EReal)) : ∃ r : ℝ, rowMax l = (r : EReal) := by
  unfold rowMax
  rw [negInf_eq]
  rcases fold_max_real l hl Finset.univ with ⟨h, -⟩ | ⟨r, h⟩
  · exact absurd h Finset.univ_nonempty.ne_empty
  · exact ⟨r, by rw [h]; exact max_eq_right bot_le⟩

/-- A finite sum of reals read as extended reals is the real sum read as an extended real. -/
theorem coe_sum {ι : Type} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- A softmax weight of a row of real logits is a nonnegative real. -/
theorem softmaxRow_nonneg_real (l : Fin 8 → EReal) (hl : ∀ j, ∃ r : ℝ, l j = (r : EReal)) (e : Fin 8) :
    ∃ r : ℝ, 0 ≤ r ∧ softmaxRow l e = (r : EReal) := by
  obtain ⟨M, hM⟩ := rowMax_real l hl
  choose lr hlr using hl
  have hexp : ∀ j, rowExp l j = ((Real.exp (lr j - M) : ℝ) : EReal) := fun j => by
    unfold rowExp
    rw [hlr j, hM, ← EReal.coe_sub, Ideal.exp_coe]
  have hsum : ∑ j : Fin 8, rowExp l j = ((∑ j : Fin 8, Real.exp (lr j - M) : ℝ) : EReal) := by
    rw [← coe_sum]
    exact Finset.sum_congr rfl fun j _ => hexp j
  have hpos : 0 < ∑ j : Fin 8, Real.exp (lr j - M) :=
    Finset.sum_pos (fun j _ => Real.exp_pos _) Finset.univ_nonempty
  refine ⟨Real.exp (lr e - M) * (1 / ∑ j : Fin 8, Real.exp (lr j - M)),
    mul_nonneg (Real.exp_pos _).le (one_div_pos.mpr hpos).le, ?_⟩
  unfold softmaxRow
  rw [hsum, hexp e, Ideal.div_coe hpos.ne', EReal.coe_mul]

/-! ## One output element: the two orders of the weighted sum -/

/-- The reference order: from zero, one expert's `w e * (y e + b e)` after the other. -/
def mixRef (w y b : Fin 8 → EReal) : EReal :=
  0 + w 0 * (y 0 + b 0) + w 1 * (y 1 + b 1) + w 2 * (y 2 + b 2) + w 3 * (y 3 + b 3)
    + w 4 * (y 4 + b 4) + w 5 * (y 5 + b 5) + w 6 * (y 6 + b 6) + w 7 * (y 7 + b 7)

/-- The split order: the weighted bias and the even experts in one accumulator, the odd experts in another
    that starts at zero, and the two added. -/
def mixSplit (w y b : Fin 8 → EReal) : EReal :=
  ((∑ j : Fin 8, w j * b j) + w 0 * y 0 + w 2 * y 2 + w 4 * y 4 + w 6 * y 6)
    + (0 + w 1 * y 1 + w 3 * y 3 + w 5 * y 5 + w 7 * y 7)

/-- With nonnegative real weights the two orders give one value: each `w e * (y e + b e)` distributes, and the rest
    is a regrouping of a sum. -/
theorem mixSplit_eq_mixRef (w y b : Fin 8 → EReal) (hw : ∀ e, ∃ r : ℝ, 0 ≤ r ∧ w e = (r : EReal)) :
    mixSplit w y b = mixRef w y b := by
  have hd : ∀ e, w e * (y e + b e) = w e * y e + w e * b e := fun e => by
    obtain ⟨r, hr, h⟩ := hw e
    rw [h]
    exact EReal.left_distrib_of_nonneg_of_ne_top (EReal.coe_nonneg.mpr hr) (EReal.coe_ne_top r) _ _
  unfold mixSplit mixRef
  rw [hd 0, hd 1, hd 2, hd 3, hd 4, hd 5, hd 6, hd 7, Fin.sum_univ_eight, zero_add, zero_add]
  ac_rfl

/-! ## The whole array -/

/-- Token `t`'s row of gate logits: the products of its features with each expert's gate column, summed. -/
def logit (x : (⟨2, ![8192, 768]⟩ : Shape).Idx → EReal) (gw : (⟨2, ![768, 8]⟩ : Shape).Idx → EReal) (t : Fin 8192) :
    Fin 8 → EReal := fun e => ∑ k : Fin 768, x (ix2 t k) * gw (ix2 k e)

/-- What each expert's matrix gives token `t` at output feature `d`. -/
def expertOut (x : (⟨2, ![8192, 768]⟩ : Shape).Idx → EReal) (ew : (⟨3, ![8, 768, 768]⟩ : Shape).Idx → EReal)
    (t : Fin 8192) (d : Fin 768) : Fin 8 → EReal := fun e => ∑ k : Fin 768, x (ix2 t k) * ew (ix3 e k d)

/-- Each expert's bias at output feature `d`. -/
def biasAt (eb : (⟨2, ![8, 768]⟩ : Shape).Idx → EReal) (d : Fin 768) : Fin 8 → EReal := fun e => eb (ix2 e d)

/-- The layer's output in the reference order. -/
def layerRef (x : (⟨2, ![8192, 768]⟩ : Shape).Idx → EReal) (gw : (⟨2, ![768, 8]⟩ : Shape).Idx → EReal)
    (ew : (⟨3, ![8, 768, 768]⟩ : Shape).Idx → EReal) (eb : (⟨2, ![8, 768]⟩ : Shape).Idx → EReal) :
    (⟨2, ![8192, 768]⟩ : Shape).Idx → EReal :=
  fun i => mixRef (softmaxRow (logit x gw (i 0))) (expertOut x ew (i 0) (i 1)) (biasAt eb (i 1))

/-- The layer's output in the split order. -/
def layerSplit (x : (⟨2, ![8192, 768]⟩ : Shape).Idx → EReal) (gw : (⟨2, ![768, 8]⟩ : Shape).Idx → EReal)
    (ew : (⟨3, ![8, 768, 768]⟩ : Shape).Idx → EReal) (eb : (⟨2, ![8, 768]⟩ : Shape).Idx → EReal) :
    (⟨2, ![8192, 768]⟩ : Shape).Idx → EReal :=
  fun i => mixSplit (softmaxRow (logit x gw (i 0))) (expertOut x ew (i 0) (i 1)) (biasAt eb (i 1))

/-- A row of logits of real features and real gate weights is a row of reals. -/
theorem logit_real (x : (⟨2, ![8192, 768]⟩ : Shape).Idx → EReal) (gw : (⟨2, ![768, 8]⟩ : Shape).Idx → EReal)
    (hx : ∀ i, ∃ r : ℝ, x i = (r : EReal)) (hg : ∀ i, ∃ r : ℝ, gw i = (r : EReal)) (t : Fin 8192) (e : Fin 8) :
    ∃ r : ℝ, logit x gw t e = (r : EReal) := by
  choose xr hxr using hx
  choose gr hgr using hg
  refine ⟨∑ k : Fin 768, xr (ix2 t k) * gr (ix2 k e), ?_⟩
  unfold logit
  rw [← coe_sum]
  exact Finset.sum_congr rfl fun k _ => by rw [hxr, hgr, EReal.coe_mul]

/-- With real features and real gate weights the two orders give one array. -/
theorem layerSplit_eq_layerRef (x : (⟨2, ![8192, 768]⟩ : Shape).Idx → EReal) (gw : (⟨2, ![768, 8]⟩ : Shape).Idx → EReal)
    (ew : (⟨3, ![8, 768, 768]⟩ : Shape).Idx → EReal) (eb : (⟨2, ![8, 768]⟩ : Shape).Idx → EReal)
    (hx : ∀ i, ∃ r : ℝ, x i = (r : EReal)) (hg : ∀ i, ∃ r : ℝ, gw i = (r : EReal)) :
    layerSplit x gw ew eb = layerRef x gw ew eb :=
  funext fun i => mixSplit_eq_mixRef _ _ _ fun e =>
    softmaxRow_nonneg_real _ (fun j => logit_real x gw hx hg (i 0) j) e

end Cert.Moe

end
-- ==== Proof.MoeFinite.lean ====
/-
  From the precondition to real numbers.

  The precondition says, of each float argument, that `|x| < +∞` holds at every entry (a comparison per entry, all of
  them reduced by `and`, the four reductions joined by `and`).  On the extended reals `|x| = max x (-x)`, and it is
  below `⊤` exactly when `x` is neither infinity, that is, when `x` is a real number.  Only the first two arguments
  (the token features and the gate weights) are needed: they make the gate logits real.
-/
import proofs.«148530_g6734508720218_cont_9to1c4b_726_17_alg».proof.Pre_finite_inputs
import Idealize.ShloMosaic.Lib.ReduceAll
import Idealize.ShloMosaic.Lib.ValueIdx
import Idealize.ShloMosaic.PureOps.Ideal.Laws

noncomputable section

namespace Cert.Moe.Finite

open Cert.Pre_finite_inputs Idealize.ShloMosaic Idealize.ShloMosaic.ValueIdx

/-- The scalar shape has one index. -/
instance : Subsingleton S_.Idx := ⟨fun a b => funext fun d => d.elim0⟩

/-- The pattern 0x7F800000 denotes `⊤`. -/
theorem posInf_eq : Ideal.ofBits .f32 0x7F800000#32 = ⊤ := by
  simp [Ideal.ofBits, Ideal.ieee]

/-- An extended real whose absolute value compares below `+∞` is a real. -/
theorem real_of_abs_lt (x : EReal)
    (h : Ideal.cmp .olt (max x (-x)) (Ideal.ofBits .f32 0x7F800000#32) = 1#1) : ∃ r : ℝ, x = (r : EReal) := by
  rw [posInf_eq] at h
  have hlt : max x (-x) < ⊤ := by
    by_contra hn
    simp [Ideal.cmp, hn] at h
  induction x using EReal.rec with
  | bot => simp at hlt
  | top => simp at hlt
  | coe r => exact ⟨r, rfl⟩

variable [Facts]
open Facts

/-- Under the precondition every entry of the first two arguments is a real number. -/
theorem reals_of_pre (a0 : FVec Ideal S8192x768 .f32) (a1 : FVec Ideal S768x8 .f32) (a2 : FVec Ideal S8x768x768 .f32)
    (a3 : FVec Ideal S8x768 .f32) (h : fn (F := Ideal) a0 a1 a2 a3 = fun _ => 1#1) :
    (∀ i, ∃ r : ℝ, a0 i = (r : EReal)) ∧ (∀ i, ∃ r : ℝ, a1 i = (r : EReal)) := by
  have h0 := congrFun h ix0
  dsimp only [fn, fn_part1] at h0
  obtain ⟨h13, -⟩ := IntOp.andi_eq_one.1 h0
  obtain ⟨h8, -⟩ := IntOp.andi_eq_one.1 h13
  obtain ⟨h3, h7⟩ := IntOp.andi_eq_one.1 h8
  exact ⟨fun i => real_of_abs_lt (a0 i) (Host.reduce_andi_all _ _ _ _ ix0 h3 i),
    fun i => real_of_abs_lt (a1 i) (Host.reduce_andi_all _ _ _ _ ix0 h7 i)⟩

end Cert.Moe.Finite

end
-- ==== Proof.LibIdxExt.lean ====
/-
  General lemmas about array indices, none about a particular program: an index of rank one, two or three is
  determined by the natural numbers its coordinates denote.  A composite of re-indexing maps (slices, reshapes,
  broadcasts) is thereby identified with the index built from explicit coordinates by checking one equation of
  naturals per axis.
-/
import Idealize.ShloMosaic.Lib.ValueIdx

namespace Cert.Lib

open Idealize.ShloMosaic Idealize.ShloMosaic.ValueIdx

/-- A rank-one index whose coordinate denotes the number `a` denotes is the index built from `a`. -/
theorem idx1_ext {n : ℕ} (i : (⟨1, ![n]⟩ : Shape).Idx) (a : Fin n) (h0 : (i 0).val = a.val) : i = ix1 a :=
  funext fun d => Fin.ext (by match d with | ⟨0, _⟩ => exact h0)

/-- A rank-two index whose coordinates denote the numbers `a` and `b` denote is the index built from them. -/
theorem idx2_ext {n0 n1 : ℕ} (i : (⟨2, ![n0, n1]⟩ : Shape).Idx) (a : Fin n0) (b : Fin n1)
    (h0 : (i 0).val = a.val) (h1 : (i 1).val = b.val) : i = ix2 a b :=
  funext fun d => Fin.ext (by match d with | ⟨0, _⟩ => exact h0 | ⟨1, _⟩ => exact h1)

/-- A rank-three index whose coordinates denote the numbers `a`, `b`, `c` denote is the index built from them. -/
theorem idx3_ext {n0 n1 n2 : ℕ} (i : (⟨3, ![n0, n1, n2]⟩ : Shape).Idx) (a : Fin n0) (b : Fin n1) (c : Fin n2)
    (h0 : (i 0).val = a.val) (h1 : (i 1).val = b.val) (h2 : (i 2).val = c.val) : i = ix3 a b c :=
  funext fun d => Fin.ext (by match d with | ⟨0, _⟩ => exact h0 | ⟨1, _⟩ => exact h1 | ⟨2, _⟩ => exact h2)

end Cert.Lib
-- ==== Proof.MoeRef.lean ====
/-
  The reference program's result, read one stage at a time, is the layer in the reference order.

  The host program computes the gate logits as one matrix product, takes each row's softmax (row maximum from `-∞`,
  exponentials of the differences, their sum from zero, the quotient), and then, expert after expert, slices the
  expert's matrix and bias out of their stacks, forms `x · W_e + b_e`, scales each row by that row's weight for the
  expert (a column sliced out of the softmax and repeated along the features), and adds the result to a running sum
  that starts at zero.  Every stage below reads one of those operations at an index; the layout operations only move
  indices, and each move is checked coordinate by coordinate.
-/
import proofs.«148530_g6734508720218_cont_9to1c4b_726_17_alg».proof.Proof.Gen.ReferenceIdeal.Read
import proofs.«148530_g6734508720218_cont_9to1c4b_726_17_alg».proof.Proof.MoeSpec
import proofs.«148530_g6734508720218_cont_9to1c4b_726_17_alg».proof.Proof.LibIdxExt

noncomputable section

open scoped BigOperators

namespace Cert.Moe.Ref

open Cert.ReferenceIdeal Cert.ReferenceIdeal.Gen Cert.ReferenceIdeal.Read Idealize.ShloMosaic Idealize.ShloMosaic.TcCoe
open Idealize.ShloMosaic.ValueIdx Cert.Moe Cert.Lib

variable (x0 : (⟨S8192x768, .f32⟩ : BufTy).Contents (Elt Ideal)) (x1 : (⟨S768x8, .f32⟩ : BufTy).Contents (Elt Ideal))
  (x2 : (⟨S8x768x768, .f32⟩ : BufTy).Contents (Elt Ideal)) (x3 : (⟨S8x768, .f32⟩ : BufTy).Contents (Elt Ideal))

/-! ## The gate: logits and their row softmax -/

/-- The gate product at (t, e) is token `t`'s logit for expert `e`. -/
theorem logits (t : Fin 8192) (e : Fin 8) : val_main_v0 (F := Ideal) x0 x1 (ix2 t e) = logit x0 x1 t e := by
  rw [val_main_v0_apply]
  show _ = ∑ k : Fin 768, x0 (ix2 t k) * x1 (ix2 k e)
  refine Finset.sum_congr rfl fun k _ => ?_
  congr 1
  · exact congrArg x0 (idx2_ext _ _ _ rfl rfl)
  · exact congrArg x1 (idx2_ext _ _ _ rfl rfl)

/-- The reduction by `max` over the expert axis, at row `t`: the fold of `max` from `-∞` over that row's logits. -/
theorem rowfold (t : Fin 8192) :
    val_main_v1 (F := Ideal) x0 x1 (ix1 t) = (Finset.univ : Finset (Fin 8)).fold max negInf (logit x0 x1 t) := by
  unfold val_main_v1
  refine (Host.reduce_eq_fold_single (FloatOps.maximumf (F := Ideal) (φ := .f32)) (val_main_v0 (F := Ideal) x0 x1)
    (val_main_cst (F := Ideal)) reducesTo_S8192x8_S8192_d1 (by decide) h_S_ (ix1 t)).trans ?_
  refine Finset.fold_congr fun k _ => ?_
  exact (congrArg (val_main_v0 (F := Ideal) x0 x1) (idx2_ext _ t k rfl rfl)).trans (logits x0 x1 t k)

/-- The row maximum as the program takes it (once more against `-∞`). -/
theorem rowmax (t : Fin 8192) : val_main_v3 (F := Ideal) x0 x1 (ix1 t) = rowMax (logit x0 x1 t) := by
  rw [val_main_v3_apply, val_main_v2_apply, val_main_cst_0_apply, rowfold]
  rfl

/-- The exponential of a logit less its row's maximum. -/
theorem rowexp (t : Fin 8192) (e : Fin 8) : val_main_v7 (F := Ideal) x0 x1 (ix2 t e) = rowExp (logit x0 x1 t) e := by
  have h : idx_main_v4 (idx_main_v5 (ix2 t e)) = ix1 t := idx1_ext _ _ rfl
  rw [val_main_v7_apply, val_main_v6_apply, val_main_v5_apply, val_main_v4_apply, logits, h, rowmax]
  rfl

/-- The row's sum of exponentials (from zero). -/
theorem rowsum (t : Fin 8192) : val_main_v8 (F := Ideal) x0 x1 (ix1 t) = ∑ j : Fin 8, rowExp (logit x0 x1 t) j := by
  rw [val_main_v8_apply, val_main_cst_1_apply, Ideal.ofBits_def, Ideal.ofBits_zero_f32, zero_add]
  refine Finset.sum_congr rfl fun k _ => ?_
  rw [← rowexp]
  exact congrArg _ (idx2_ext _ _ _ rfl rfl)

/-- The softmax weight of expert `e` for token `t`. -/
theorem weights (t : Fin 8192) (e : Fin 8) :
    val_main_v11 (F := Ideal) x0 x1 (ix2 t e) = softmaxRow (logit x0 x1 t) e := by
  have h : idx_main_v9 (idx_main_v10 (ix2 t e)) = ix1 t := idx1_ext _ _ rfl
  rw [val_main_v11_apply, val_main_v10_apply, val_main_v9_apply, rowexp, h, rowsum]
  rfl

/-! ## The experts, one after the other -/

/-- Expert 0's matrix, sliced out of the stack and reshaped, times the features: `∑ k, x (t, k) * W (0, k, d)`. -/
theorem expert0 (t : Fin 8192) (d : Fin 768) :
    val_main_v15 (F := Ideal) x0 x2 (ix2 t d) = expertOut x0 x2 t d 0 := by
  rw [val_main_v15_apply]
  show _ = ∑ k : Fin 768, x0 (ix2 t k) * x2 (ix3 (0 : Fin 8) k d)
  refine Finset.sum_congr rfl fun k _ => ?_
  rw [val_main_v14_apply, val_main_v13_apply]
  have hk := k.isLt
  have hd := d.isLt
  congr 1
  · exact congrArg x0 (idx2_ext _ _ _ rfl rfl)
  · exact congrArg x2 (idx3_ext _ _ _ _ rfl
      (by show (k.val * 768 + d.val) / 768 % 768 = k.val; omega)
      (by show (k.val * 768 + d.val) % 768 = d.val; omega))

/-- Expert 0's bias row, sliced out, reshaped and repeated down the tokens, at (t, d): `b (0, d)`. -/
theorem bias0 (t : Fin 8192) (d : Fin 768) : val_main_v19 (F := Ideal) x3 (ix2 t d) = biasAt x3 d 0 := by
  rw [val_main_v19_apply, val_main_v18_apply, val_main_v17_apply, val_main_v16_apply]
  have hd := d.isLt
  exact congrArg x3 (idx2_ext _ _ _ rfl (by show d.val % 768 = d.val; omega))

/-- Column 0 of the softmax, sliced out, reshaped and repeated along the features, at (t, d): the weight at (t, 0). -/
theorem wcol0 (t : Fin 8192) (d : Fin 768) :
    val_main_v24 (F := Ideal) x0 x1 (ix2 t d) = val_main_v11 (F := Ideal) x0 x1 (ix2 t 0) := by
  rw [val_main_v24_apply, val_main_v23_apply, val_main_v22_apply, val_main_v21_apply]
  exact congrArg _ (idx2_ext _ _ _ (by show t.val / 1 = t.val; omega) rfl)

/-- Expert 0's term of the weighted sum. -/
theorem term0 (t : Fin 8192) (d : Fin 768) :
    val_main_v25 (F := Ideal) x0 x1 x2 x3 (ix2 t d)
      = softmaxRow (logit x0 x1 t) 0 * (expertOut x0 x2 t d 0 + biasAt x3 d 0) := by
  rw [val_main_v25_apply, val_main_v20_apply, wcol0, weights, expert0, bias0]
  rfl

/-- Expert 1's matrix, sliced out of the stack and reshaped, times the features: `∑ k, x (t, k) * W (1, k, d)`. -/
theorem expert1 (t : Fin 8192) (d : Fin 768) :
    val_main_v29 (F := Ideal) x0 x2 (ix2 t d) = expertOut x0 x2 t d 1 := by
  rw [val_main_v29_apply]
  show _ = ∑ k : Fin 768, x0 (ix2 t k) * x2 (ix3 (1 : Fin 8) k d)
  refine Finset.sum_congr rfl fun k _ => ?_
  rw [val_main_v28_apply, val_main_v27_apply]
  have hk := k.isLt
  have hd := d.isLt
  congr 1
  · exact congrArg x0 (idx2_ext _ _ _ rfl rfl)
  · exact congrArg x2 (idx3_ext _ _ _ _ rfl
      (by show (k.val * 768 + d.val) / 768 % 768 = k.val; omega)
      (by show (k.val * 768 + d.val) % 768 = d.val; omega))

/-- Expert 1's bias row, sliced out, reshaped and repeated down the tokens, at (t, d): `b (1, d)`. -/
theorem bias1 (t : Fin 8192) (d : Fin 768) : val_main_v33 (F := Ideal) x3 (ix2 t d) = biasAt x3 d 1 := by
  rw [val_main_v33_apply, val_main_v32_apply, val_main_v31_apply, val_main_v30_apply]
  have hd := d.isLt
  exact congrArg x3 (idx2_ext _ _ _ rfl (by show d.val % 768 = d.val; omega))

/-- Column 1 of the softmax, sliced out, reshaped and repeated along the features, at (t, d): the weight at (t, 1). -/
theorem wcol1 (t : Fin 8192) (d : Fin 768) :
    val_main_v38 (F := Ideal) x0 x1 (ix2 t d) = val_main_v11 (F := Ideal) x0 x1 (ix2 t 1) := by
  rw [val_main_v38_apply, val_main_v37_apply, val_main_v36_apply, val_main_v35_apply]
  exact congrArg _ (idx2_ext _ _ _ (by show t.val / 1 = t.val; omega) rfl)

/-- Expert 1's term of the weighted sum. -/
theorem term1 (t : Fin 8192) (d : Fin 768) :
    val_main_v39 (F := Ideal) x0 x1 x2 x3 (ix2 t d)
      = softmaxRow (logit x0 x1 t) 1 * (expertOut x0 x2 t d 1 + biasAt x3 d 1) := by
  rw [val_main_v39_apply, val_main_v34_apply, wcol1, weights, expert1, bias1]
  rfl

/-- Expert 2's matrix, sliced out of the stack and reshaped, times the features: `∑ k, x (t, k) * W (2, k, d)`. -/
theorem expert2 (t : Fin 8192) (d : Fin 768) :
    val_main_v43 (F := Ideal) x0 x2 (ix2 t d) = expertOut x0 x2 t d 2 := by
  rw [val_main_v43_apply]
  show _ = ∑ k : Fin 768, x0 (ix2 t k) * x2 (ix3 (2 : Fin 8) k d)
  refine Finset.sum_congr rfl fun k _ => ?_
  rw [val_main_v42_apply, val_main_v41_apply]
  have hk := k.isLt
  have hd := d.isLt
  congr 1
  · exact congrArg x0 (idx2_ext _ _ _ rfl rfl)
  · exact congrArg x2 (idx3_ext _ _ _ _ rfl
      (by show (k.val * 768 + d.val) / 768 % 768 = k.val; omega)
      (by show (k.val * 768 + d.val) % 768 = d.val; omega))

/-- Expert 2's bias row, sliced out, reshaped and repeated down the tokens, at (t, d): `b (2, d)`. -/
theorem bias2 (t : Fin 8192) (d : Fin 768) : val_main_v47 (F := Ideal) x3 (ix2 t d) = biasAt x3 d 2 := by
  rw [val_main_v47_apply, val_main_v46_apply, val_main_v45_apply, val_main_v44_apply]
  have hd := d.isLt
  exact congrArg x3 (idx2_ext _ _ _ rfl (by show d.val % 768 = d.val; omega))

/-- Column 2 of the softmax, sliced out, reshaped and repeated along the features, at (t, d): the weight at (t, 2). -/
theorem wcol2 (t : Fin 8192) (d : Fin 768) :
    val_main_v52 (F := Ideal) x0 x1 (ix2 t d) = val_main_v11 (F := Ideal) x0 x1 (ix2 t 2) := by
  rw [val_main_v52_apply, val_main_v51_apply, val_main_v50_apply, val_main_v49_apply]
  exact congrArg _ (idx2_ext _ _ _ (by show t.val / 1 = t.val; omega) rfl)

/-- Expert 2's term of the weighted sum. -/
theorem term2 (t : Fin 8192) (d : Fin 768) :
    val_main_v53 (F := Ideal) x0 x1 x2 x3 (ix2 t d)
      = softmaxRow (logit x0 x1 t) 2 * (expertOut x0 x2 t d 2 + biasAt x3 d 2) := by
  rw [val_main_v53_apply, val_main_v48_apply, wcol2, weights, expert2, bias2]
  rfl

/-- Expert 3's matrix, sliced out of the stack and reshaped, times the features: `∑ k, x (t, k) * W (3, k, d)`. -/
theorem expert3 (t : Fin 8192) (d : Fin 768) :
    val_main_v57 (F := Ideal) x0 x2 (ix2 t d) = expertOut x0 x2 t d 3 := by
  rw [val_main_v57_apply]
  show _ = ∑ k : Fin 768, x0 (ix2 t k) * x2 (ix3 (3 : Fin 8) k d)
  refine Finset.sum_congr rfl fun k _ => ?_
  rw [val_main_v56_apply, val_main_v55_apply]
  have hk := k.isLt
  have hd := d.isLt
  congr 1
  · exact congrArg x0 (idx2_ext _ _ _ rfl rfl)
  · exact congrArg x2 (idx3_ext _ _ _ _ rfl
      (by show (k.val * 768 + d.val) / 768 % 768 = k.val; omega)
      (by show (k.val * 768 + d.val) % 768 = d.val; omega))

/-- Expert 3's bias row, sliced out, reshaped and repeated down the tokens, at (t, d): `b (3, d)`. -/
theorem bias3 (t : Fin 8192) (d : Fin 768) : val_main_v61 (F := Ideal) x3 (ix2 t d) = biasAt x3 d 3 := by
  rw [val_main_v61_apply, val_main_v60_apply, val_main_v59_apply, val_main_v58_apply]
  have hd := d.isLt
  exact congrArg x3 (idx2_ext _ _ _ rfl (by show d.val % 768 = d.val; omega))

/-- Column 3 of the softmax, sliced out, reshaped and repeated along the features, at (t, d): the weight at (t, 3). -/
theorem wcol3 (t : Fin 8192) (d : Fin 768) :
    val_main_v66 (F := Ideal) x0 x1 (ix2 t d) = val_main_v11 (F := Ideal) x0 x1 (ix2 t 3) := by
  rw [val_main_v66_apply, val_main_v65_apply, val_main_v64_apply, val_main_v63_apply]
  exact congrArg _ (idx2_ext _ _ _ (by show t.val / 1 = t.val; omega) rfl)

/-- Expert 3's term of the weighted sum. -/
theorem term3 (t : Fin 8192) (d : Fin 768) :
    val_main_v67 (F := Ideal) x0 x1 x2 x3 (ix2 t d)
      = softmaxRow (logit x0 x1 t) 3 * (expertOut x0 x2 t d 3 + biasAt x3 d 3) := by
  rw [val_main_v67_apply, val_main_v62_apply, wcol3, weights, expert3, bias3]
  rfl

/-- Expert 4's matrix, sliced out of the stack and reshaped, times the features: `∑ k, x (t, k) * W (4, k, d)`. -/
theorem expert4 (t : Fin 8192) (d : Fin 768) :
    val_main_v71 (F := Ideal) x0 x2 (ix2 t d) = expertOut x0 x2 t d 4 := by
  rw [val_main_v71_apply]
  show _ = ∑ k : Fin 768, x0 (ix2 t k) * x2 (ix3 (4 : Fin 8) k d)
  refine Finset.sum_congr rfl fun k _ => ?_
  rw [val_main_v70_apply, val_main_v69_apply]
  have hk := k.isLt
  have hd := d.isLt
  congr 1
  · exact congrArg x0 (idx2_ext _ _ _ rfl rfl)
  · exact congrArg x2 (idx3_ext _ _ _ _ rfl
      (by show (k.val * 768 + d.val) / 768 % 768 = k.val; omega)
      (by show (k.val * 768 + d.val) % 768 = d.val; omega))

/-- Expert 4's bias row, sliced out, reshaped and repeated down the tokens, at (t, d): `b (4, d)`. -/
theorem bias4 (t : Fin 8192) (d : Fin 768) : val_main_v75 (F := Ideal) x3 (ix2 t d) = biasAt x3 d 4 := by
  rw [val_main_v75_apply, val_main_v74_apply, val_main_v73_apply, val_main_v72_apply]
  have hd := d.isLt
  exact congrArg x3 (idx2_ext _ _ _ rfl (by show d.val % 768 = d.val; omega))

/-- Column 4 of the softmax, sliced out, reshaped and repeated along the features, at (t, d): the weight at (t, 4). -/
theorem wcol4 (t : Fin 8192) (d : Fin 768) :
    val_main_v80 (F := Ideal) x0 x1 (ix2 t d) = val_main_v11 (F := Ideal) x0 x1 (ix2 t 4) := by
  rw [val_main_v80_apply, val_main_v79_apply, val_main_v78_apply, val_main_v77_apply]
  exact congrArg _ (idx2_ext _ _ _ (by show t.val / 1 = t.val; omega) rfl)

/-- Expert 4's term of the weighted sum. -/
theorem term4 (t : Fin 8192) (d : Fin 768) :
    val_main_v81 (F := Ideal) x0 x1 x2 x3 (ix2 t d)
      = softmaxRow (logit x0 x1 t) 4 * (expertOut x0 x2 t d 4 + biasAt x3 d 4) := by
  rw [val_main_v81_apply, val_main_v76_apply, wcol4, weights, expert4, bias4]
  rfl

/-- Expert 5's matrix, sliced out of the stack and reshaped, times the features: `∑ k, x (t, k) * W (5, k, d)`. -/
theorem expert5 (t : Fin 8192) (d : Fin 768) :
    val_main_v85 (F := Ideal) x0 x2 (ix2 t d) = expertOut x0 x2 t d 5 := by
  rw [val_main_v85_apply]
  show _ = ∑ k : Fin 768, x0 (ix2 t k) * x2 (ix3 (5 : Fin 8) k d)
  refine Finset.sum_congr rfl fun k _ => ?_
  rw [val_main_v84_apply, val_main_v83_apply]
  have hk := k.isLt
  have hd := d.isLt
  congr 1
  · exact congrArg x0 (idx2_ext _ _ _ rfl rfl)
  · exact congrArg x2 (idx3_ext _ _ _ _ rfl
      (by show (k.val * 768 + d.val) / 768 % 768 = k.val; omega)
      (by show (k.val * 768 + d.val) % 768 = d.val; omega))

/-- Expert 5's bias row, sliced out, reshaped and repeated down the tokens, at (t, d): `b (5, d)`. -/
theorem bias5 (t : Fin 8192) (d : Fin 768) : val_main_v89 (F := Ideal) x3 (ix2 t d) = biasAt x3 d 5 := by
  rw [val_main_v89_apply, val_main_v88_apply, val_main_v87_apply, val_main_v86_apply]
  have hd := d.isLt
  exact congrArg x3 (idx2_ext _ _ _ rfl (by show d.val % 768 = d.val; omega))

/-- Column 5 of the softmax, sliced out, reshaped and repeated along the features, at (t, d): the weight at (t, 5). -/
theorem wcol5 (t : Fin 8192) (d : Fin 768) :
    val_main_v94 (F := Ideal) x0 x1 (ix2 t d) = val_main_v11 (F := Ideal) x0 x1 (ix2 t 5) := by
  rw [val_main_v94_apply, val_main_v93_apply, val_main_v92_apply, val_main_v91_apply]
  exact congrArg _ (idx2_ext _ _ _ (by show t.val / 1 = t.val; omega) rfl)

/-- Expert 5's term of the weighted sum. -/
theorem term5 (t : Fin 8192) (d : Fin 768) :
    val_main_v95 (F := Ideal) x0 x1 x2 x3 (ix2 t d)
      = softmaxRow (logit x0 x1 t) 5 * (expertOut x0 x2 t d 5 + biasAt x3 d 5) := by
  rw [val_main_v95_apply, val_main_v90_apply, wcol5, weights, expert5, bias5]
  rfl

/-- Expert 6's matrix, sliced out of the stack and reshaped, times the features: `∑ k, x (t, k) * W (6, k, d)`. -/
theorem expert6 (t : Fin 8192) (d : Fin 768) :
    val_main_v99 (F := Ideal) x0 x2 (ix2 t d) = expertOut x0 x2 t d 6 := by
  rw [val_main_v99_apply]
  show _ = ∑ k : Fin 768, x0 (ix2 t k) * x2 (ix3 (6 : Fin 8) k d)
  refine Finset.sum_congr rfl fun k _ => ?_
  rw [val_main_v98_apply, val_main_v97_apply]
  have hk := k.isLt
  have hd := d.isLt
  congr 1
  · exact congrArg x0 (idx2_ext _ _ _ rfl rfl)
  · exact congrArg x2 (idx3_ext _ _ _ _ rfl
      (by show (k.val * 768 + d.val) / 768 % 768 = k.val; omega)
      (by show (k.val * 768 + d.val) % 768 = d.val; omega))

/-- Expert 6's bias row, sliced out, reshaped and repeated down the tokens, at (t, d): `b (6, d)`. -/
theorem bias6 (t : Fin 8192) (d : Fin 768) : val_main_v103 (F := Ideal) x3 (ix2 t d) = biasAt x3 d 6 := by
  rw [val_main_v103_apply, val_main_v102_apply, val_main_v101_apply, val_main_v100_apply]
  have hd := d.isLt
  exact congrArg x3 (idx2_ext _ _ _ rfl (by show d.val % 768 = d.val; omega))

/-- Column 6 of the softmax, sliced out, reshaped and repeated along the features, at (t, d): the weight at (t, 6). -/
theorem wcol6 (t : Fin 8192) (d : Fin 768) :
    val_main_v108 (F := Ideal) x0 x1 (ix2 t d) = val_main_v11 (F := Ideal) x0 x1 (ix2 t 6) := by
  rw [val_main_v108_apply, val_main_v107_apply, val_main_v106_apply, val_main_v105_apply]
  exact congrArg _ (idx2_ext _ _ _ (by show t.val / 1 = t.val; omega) rfl)

/-- Expert 6's term of the weighted sum. -/
theorem term6 (t : Fin 8192) (d : Fin 768) :
    val_main_v109 (F := Ideal) x0 x1 x2 x3 (ix2 t d)
      = softmaxRow (logit x0 x1 t) 6 * (expertOut x0 x2 t d 6 + biasAt x3 d 6) := by
  rw [val_main_v109_apply, val_main_v104_apply, wcol6, weights, expert6, bias6]
  rfl

/-- Expert 7's matrix, sliced out of the stack and reshaped, times the features: `∑ k, x (t, k) * W (7, k, d)`. -/
theorem expert7 (t : Fin 8192) (d : Fin 768) :
    val_main_v113 (F := Ideal) x0 x2 (ix2 t d) = expertOut x0 x2 t d 7 := by
  rw [val_main_v113_apply]
  show _ = ∑ k : Fin 768, x0 (ix2 t k) * x2 (ix3 (7 : Fin 8) k d)
  refine Finset.sum_congr rfl fun k _ => ?_
  rw [val_main_v112_apply, val_main_v111_apply]
  have hk := k.isLt
  have hd := d.isLt
  congr 1
  · exact congrArg x0 (idx2_ext _ _ _ rfl rfl)
  · exact congrArg x2 (idx3_ext _ _ _ _ rfl
      (by show (k.val * 768 + d.val) / 768 % 768 = k.val; omega)
      (by show (k.val * 768 + d.val) % 768 = d.val; omega))

/-- Expert 7's bias row, sliced out, reshaped and repeated down the tokens, at (t, d): `b (7, d)`. -/
theorem bias7 (t : Fin 8192) (d : Fin 768) : val_main_v117 (F := Ideal) x3 (ix2 t d) = biasAt x3 d 7 := by
  rw [val_main_v117_apply, val_main_v116_apply, val_main_v115_apply, val_main_v114_apply]
  have hd := d.isLt
  exact congrArg x3 (idx2_ext _ _ _ rfl (by show d.val % 768 = d.val; omega))

/-- Column 7 of the softmax, sliced out, reshaped and repeated along the features, at (t, d): the weight at (t, 7). -/
theorem wcol7 (t : Fin 8192) (d : Fin 768) :
    val_main_v122 (F := Ideal) x0 x1 (ix2 t d) = val_main_v11 (F := Ideal) x0 x1 (ix2 t 7) := by
  rw [val_main_v122_apply, val_main_v121_apply, val_main_v120_apply, val_main_v119_apply]
  exact congrArg _ (idx2_ext _ _ _ (by show t.val / 1 = t.val; omega) rfl)

/-- Expert 7's term of the weighted sum. -/
theorem term7 (t : Fin 8192) (d : Fin 768) :
    val_main_v123 (F := Ideal) x0 x1 x2 x3 (ix2 t d)
      = softmaxRow (logit x0 x1 t) 7 * (expertOut x0 x2 t d 7 + biasAt x3 d 7) := by
  rw [val_main_v123_apply, val_main_v118_apply, wcol7, weights, expert7, bias7]
  rfl

/-! ## The running sum -/

/-- The program's result at (t, d): the eight terms folded from zero. -/
theorem result_apply (t : Fin 8192) (d : Fin 768) :
    val_main_v124 (F := Ideal) x0 x1 x2 x3 (ix2 t d)
      = mixRef (softmaxRow (logit x0 x1 t)) (expertOut x0 x2 t d) (biasAt x3 d) := by
  rw [val_main_v124_apply, val_main_v110_apply, val_main_v96_apply, val_main_v82_apply, val_main_v68_apply,
    val_main_v54_apply, val_main_v40_apply, val_main_v26_apply, val_main_v12_apply, val_main_cst_2_apply,
    term0, term1, term2, term3, term4, term5, term6, term7, Ideal.ofBits_def, Ideal.ofBits_zero_f32]
  rfl

/-- The reference program's result is the layer in the reference order. -/
theorem result_eq : val_main_v124 (F := Ideal) x0 x1 x2 x3 = layerRef x0 x1 x2 x3 := by
  funext i
  obtain ⟨t, d, rfl⟩ : ∃ (t : Fin 8192) (d : Fin 768), i = ix2 t d := ⟨i 0, i 1, eq_ix2 i⟩
  exact result_apply x0 x1 x2 x3 t d

end Cert.Moe.Ref

end
-- ==== Proof.LibPlainMatmul.lean ====
/-
  A plain matrix product read at an index, at the exact (extended-real) instance.

  For operands `l : [M, K]` and `w : [K, N]` and the dimension numbers "contract the left operand's last axis with the
  right operand's first, no batch axis", the product accumulated into the zero array has, at `(r, c)`, the value
  `∑ j, l (r, j) * w (j, c)`: there is no rounding and no accumulation order at this instance, and the one-axis contraction
  index is its one coordinate. Stated for every extent and every pair of operand formats (at this instance an entry is an
  extended real whatever its format).
-/
import Idealize.ShloMosaic.Lib.ValueIdx
import Idealize.ShloMosaic.PureOps.Ideal.Laws

noncomputable section

open scoped BigOperators

namespace Cert.Lib

open Idealize.ShloMosaic Idealize.ShloMosaic.ValueIdx

/-- A plain matrix product `[M, K] × [K, N]` accumulated into zeros, read at `(r, c)`: the sum over the contracted
    index `j` of `l (r, j) * w (j, c)`. -/
theorem matmul_plain_zero_apply {M K N : ℕ} {φ₁ φ₂ : FTy} (prec : Option ContractPrecision)
    (l : FVec Ideal ⟨2, ![M, K]⟩ φ₁) (w : FVec Ideal ⟨2, ![K, N]⟩ φ₂) (r : Fin M) (c : Fin N) :
    matmul (DotDims.plain M K N) prec l w (constant (F := Ideal) ⟨2, ![M, N]⟩ .f32 0x00000000#32) (ix2 r c)
      = ∑ j : Fin K, l (ix2 r j) * w (ix2 j c) := by
  simp only [matmul]
  rw [Ideal.matmul_constant_zero_apply, ← Equiv.sum_comp (contrEquiv1 (DotDims.plain M K N) K rfl rfl).symm]
  refine Finset.sum_congr rfl fun k _ => ?_
  -- the contraction index built from `k` has `k` as its one coordinate
  have hk := contrEquiv1_symm_val (DotDims.plain M K N) K rfl rfl k
  -- the left operand is read at (r, k): its kept axis follows the output's row, its contracted axis the index
  have el : (DotDims.plain M K N).lhsIdx (ix2 r c) ((contrEquiv1 (DotDims.plain M K N) K rfl rfl).symm k) = ix2 r k :=
    funext fun a => Fin.ext (by
      match a with
      | ⟨0, _⟩ => rfl
      | ⟨1, _⟩ => exact ((DotDims.plain M K N).lhsIdx_val_of_single rfl _ _).trans hk)
  -- the right operand is read at (k, c)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

end Cert.Lib

end
-- ==== Proof.LibColumns.lean ====
/-
  General lemmas, none about a particular kernel.

  (1) The "keepdims" column forms of two layout operations, read at an index: an [a,1] column repeated along b lanes
      (`vector.broadcast` of a per-row scalar over a row), and an [a] vector seen as an [a,1] column (`vector.shape_cast`
      after a lane reduction with keepdims).
  (2) Two re-indexings of finite sums over any commutative monoid: a sum over a·b consecutive naturals cut into a runs
      of b, and a sum over the index of a rank-one shape as the sum over its coordinate.
-/
import Idealize.ShloMosaic.Lib.Pipeline.Value
import Idealize.ShloMosaic.Lib.ValueIdx

namespace Cert.Lib

open Idealize.ShloMosaic Idealize.ShloMosaic.ValueIdx

/-- An [a,1] column repeated along b lanes reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => show (0 : ℕ) = if (1 : ℕ) = 1 then 0 else c.val; rw [if_pos rfl]

/-- An [a] vector seen as an [a,1] column reads, at (p, 0), the vector at p. -/
theorem shapeCast_a_a1_apply {α : Type} {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_one, Shape.rowMajor_val_two]
    show p.val = p.val * 1 + u.val
    omega)

/-- A sum over a·b consecutive naturals, cut into a runs of b. -/
theorem sum_range_mul {M : Type*} [AddCommMonoid M] (f : ℕ → M) (a b : ℕ) :
    ∑ n ∈ Finset.range (a * b), f n = ∑ t ∈ Finset.range a, ∑ r ∈ Finset.range b, f (t * b + r) := by
  induction a with
  | zero => simp
  | succ a ih => rw [Nat.succ_mul, Finset.sum_range_add, ih, Finset.sum_range_succ]

/-- A sum over a rank-one index is the sum over its coordinate. -/
theorem sum_idx1 {M : Type*} [AddCommMonoid M] {n : ℕ} (f : (⟨1, ![n]⟩ : Shape).Idx → M) :
    ∑ j : (⟨1, ![n]⟩ : Shape).Idx, f j = ∑ a : Fin n, f (ix1 a) :=
  let e : (⟨1, ![n]⟩ : Shape).Idx ≃ Fin n := ⟨fun j => j 0, ix1, fun j => (eq_ix1 j).symm, fun _ => rfl⟩
  Fintype.sum_equiv e _ _ fun j => congrArg f (eq_ix1 j)

end Cert.Lib
-- ==== Proof.MoeBody.lean ====
/-
  The kernel body's arithmetic, read at one element of its output block.

  For one block of 1024 tokens the body forms the gate logits `x · G` (a matrix product into zeros), takes each
  row's softmax exactly as the reference does (row maximum from `-∞` and once more against `-∞`, exponentials of the
  differences, their sum, the quotient), forms the weighted bias as ONE product `w · B` of the [1024, 8] weights with
  the [8, 768] biases, and then keeps two accumulators: the first starts at the weighted bias and receives the even
  experts' `w_e · (x · W_e)`, the second starts at zero and receives the odd experts'; their sum is stored.  The features
  enter the expert products narrowed to sixteen bits, which changes nothing where a float is an extended real.  The
  softmax weight of expert `e` is column `e` of the weights, sliced out and repeated along the 768 features.
-/
import proofs.«148530_g6734508720218_cont_9to1c4b_726_17_alg».proof.Proof.Gen.KernelIdeal.Skeleton
import proofs.«148530_g6734508720218_cont_9to1c4b_726_17_alg».proof.Proof.MoeSpec
import proofs.«148530_g6734508720218_cont_9to1c4b_726_17_alg».proof.Proof.LibIdxExt
import proofs.«148530_g6734508720218_cont_9to1c4b_726_17_alg».proof.Proof.LibPlainMatmul
import proofs.«148530_g6734508720218_cont_9to1c4b_726_17_alg».proof.Proof.LibColumns
import Idealize.ShloMosaic.Lib.Pipeline.Value

noncomputable section

open scoped BigOperators

namespace Cert.Moe.Body

open Cert.KernelIdeal Cert.KernelIdeal.Gen Idealize.ShloMosaic Idealize.ShloMosaic.ValueIdx Cert.Moe Cert.Lib

/-! ## The row softmax as the body spells it -/

/-- A per-row value repeated along the eight expert lanes. -/
def lanes (v : FVec Ideal S1024 .f32) : FVec Ideal S1024x8 .f32 :=
  broadcastTo S1024x8 (shapeCast S1024x1 v shapeCasts_S1024_S1024x1) broadcasts_S1024x1_S1024x8

/-- Each row's maximum: the lane reduction from `-∞`, then once more against `-∞`. -/
def blockMax (l : FVec Ideal S1024x8 .f32) : FVec Ideal S1024 .f32 :=
  maximumf (broadcast S1024 (Scalar.ofBits (F := Ideal) .f32 0xFF800000#32))
    (multiReduction (F := Ideal) .maximumf [1] S1024 l 0xFF800000#32 reduces_S1024x8_S1024 (.inl rfl) rfl)

/-- The exponentials of the logits less their row's maximum. -/
def blockExp (l : FVec Ideal S1024x8 .f32) : FVec Ideal S1024x8 .f32 := exp (subf l (lanes (blockMax l)))

/-- Each row's sum of exponentials. -/
def blockSum (l : FVec Ideal S1024x8 .f32) : FVec Ideal S1024 .f32 :=
  multiReduction (F := Ideal) .add [1] S1024 (blockExp l) 0x00000000#32 reduces_S1024x8_S1024 (.inl rfl) rfl

/-- The softmax of every row of a [1024, 8] block. -/
def blockSoftmax (l : FVec Ideal S1024x8 .f32) : FVec Ideal S1024x8 .f32 := divf (blockExp l) (lanes (blockSum l))

/-- A per-row value repeated along the lanes reads, at (p, e), the value of row `p`. -/
theorem lanes_apply (v : FVec Ideal S1024 .f32) (p : Fin 1024) (e : Fin 8) : lanes v (ix2 p e) = v (ix1 p) :=
  (broadcastTo_a1_ab_apply _ broadcasts_S1024x1_S1024x8 p e).trans
    (shapeCast_a_a1_apply v shapeCasts_S1024_S1024x1 p 0)

/-- Row `p`'s maximum is the row maximum of its eight logits. -/
theorem blockMax_apply (l : FVec Ideal S1024x8 .f32) (p : Fin 1024) :
    blockMax l (ix1 p) = rowMax (fun j => l (ix2 p j)) := by
  unfold rowMax
  show max negInf (multiReduction (F := Ideal) .maximumf [1] S1024 l 0xFF800000#32 reduces_S1024x8_S1024 (.inl rfl) rfl (ix1 p))
    = max negInf _
  refine congrArg (max negInf) ?_
  refine (Ideal.multiReduction_maximumf_single l 0xFF800000#32 reduces_S1024x8_S1024 (.inl rfl) rfl (ix1 p)).trans ?_
  refine Finset.fold_congr fun k _ => ?_
  exact congrArg l (idx2_ext _ p k rfl rfl)

/-- The exponential at (p, e) is the row's unnormalised weight of expert `e`. -/
theorem blockExp_apply (l : FVec Ideal S1024x8 .f32) (p : Fin 1024) (e : Fin 8) :
    blockExp l (ix2 p e) = rowExp (fun j => l (ix2 p j)) e := by
  show Ideal.exp (l (ix2 p e) - lanes (blockMax l) (ix2 p e)) = Ideal.exp (l (ix2 p e) - rowMax (fun j => l (ix2 p j)))
  rw [lanes_apply, blockMax_apply]

/-- Row `p`'s sum of exponentials. -/
theorem blockSum_apply (l : FVec Ideal S1024x8 .f32) (p : Fin 1024) :
    blockSum l (ix1 p) = ∑ j : Fin 8, rowExp (fun j => l (ix2 p j)) j := by
  refine (Ideal.multiReduction_add_single (blockExp l) 0x00000000#32 reduces_S1024x8_S1024 (.inl rfl) rfl (ix1 p)).trans ?_
  refine Finset.sum_congr rfl fun k _ => ?_
  exact (congrArg (blockExp l) (idx2_ext _ p k rfl rfl)).trans (blockExp_apply l p k)

/-- The block softmax at (p, e) is the softmax weight of expert `e` in row `p`. -/
theorem blockSoftmax_apply (l : FVec Ideal S1024x8 .f32) (p : Fin 1024) (e : Fin 8) :
    blockSoftmax l (ix2 p e) = softmaxRow (fun j => l (ix2 p j)) e := by
  show Ideal.div (blockExp l (ix2 p e)) (lanes (blockSum l) (ix2 p e))
    = Ideal.div (rowExp (fun j => l (ix2 p j)) e) (∑ j : Fin 8, rowExp (fun j => l (ix2 p j)) j)
  rw [lanes_apply, blockSum_apply, blockExp_apply]

/-! ## The block's logits, weights, expert products and weighted bias -/

/-- Row `p`'s eight gate logits within a block. -/
def blockLogit (v0 : Vec Ideal S1024x768 .f32) (v1 : Vec Ideal S768x8 .f32) (p : Fin 1024) : Fin 8 → EReal :=
  fun e => ∑ k : Fin 768, v0 (ix2 p k) * v1 (ix2 k e)

/-- The first payload is the block softmax of the gate product. -/
theorem pay1_eq (v0 : Vec Ideal S1024x768 .f32) (v1 : Vec Ideal S768x8 .f32) :
    k0_pay1 (F := Ideal) v0 v1
      = blockSoftmax (matmul (F := Ideal) (φ₁ := .f32) (φ₂ := .f32) dot_S1024x768_S768x8_S1024x8_1_0_0_1_n_n none v0 v1
          (constant S1024x8 .f32 0x00000000#32)) :=
  rfl

/-- The block's softmax weights at (p, e). -/
theorem pay1_apply (v0 : Vec Ideal S1024x768 .f32) (v1 : Vec Ideal S768x8 .f32) (p : Fin 1024) (e : Fin 8) :
    k0_pay1 (F := Ideal) v0 v1 (ix2 p e) = softmaxRow (blockLogit v0 v1 p) e := by
  rw [pay1_eq, blockSoftmax_apply]
  exact congrArg (fun l => softmaxRow l e) (funext fun j => matmul_plain_zero_apply none v0 v1 p j)

/-- The features narrowed to sixteen bits are the features. -/
theorem pay2_apply (v0 : Vec Ideal S1024x768 .f32) (i : S1024x768.Idx) : k0_pay2 (F := Ideal) v0 i = v0 i := rfl

/-- Column `c` of a [1024, 8] array, sliced out and repeated along the features, at (p, d): the entry at (p, c). -/
theorem column_apply (w : FVec Ideal S1024x8 .f32) (c : Fin 8) (hs : S1024x8.Slices ![0, c.val] S1024x1)
    (p : Fin 1024) (d : Fin 768) :
    broadcastTo S1024x768 (extractStridedSlice S1024x1 ![0, c.val] w hs) broadcasts_S1024x1_S1024x768 (ix2 p d)
      = w (ix2 p c) :=
  (broadcastTo_a1_ab_apply _ broadcasts_S1024x1_S1024x768 p d).trans
    (extractStridedSlice_apply ![0, c.val] w hs (ix2 p (0 : Fin 1)) (ix2 p c) fun a => by
      match a with
      | ⟨0, _⟩ => show p.val = 0 + p.val; omega
      | ⟨1, _⟩ => show c.val = c.val + 0; omega)

/-- One expert's product for token `p` at feature `d`, the expert's matrix given as a [1, 768, 768] slab. -/
def slabOut (u : FVec Ideal S1024x768 .bf16) (s : Vec Ideal S1x768x768 .f32) (p : Fin 1024) (d : Fin 768) : EReal :=
  ∑ k : Fin 768, u (ix2 p k) * s (ix3 (0 : Fin 1) k d)

/-- The product of the block's features with a slab seen as a [768, 768] matrix, into zeros, at (p, d). -/
theorem slab_matmul_apply (u : FVec Ideal S1024x768 .bf16) (s : Vec Ideal S1x768x768 .f32) (p : Fin 1024) (d : Fin 768) :
    matmul (F := Ideal) (φ₂ := .f32) dot_S1024x768_S768x768_S1024x768_1_0_0_1_n_n none u
        (shapeCast S768x768 s shapeCasts_S1x768x768_S768x768) (constant S1024x768 .f32 0x00000000#32) (ix2 p d)
      = slabOut u s p d := by
  refine (matmul_plain_zero_apply none u (shapeCast S768x768 s shapeCasts_S1x768x768_S768x768) p d).trans ?_
  refine Finset.sum_congr rfl fun k _ => ?_
  refine congrArg (u (ix2 p k) * ·) ?_
  have hk := k.isLt
  have hd := d.isLt
  exact shapeCast_apply s shapeCasts_S1x768x768_S768x768 (ix2 k d) (ix3 (0 : Fin 1) k d) (by
    rw [Shape.rowMajor_val_three, Shape.rowMajor_val_two]
    show (0 * 768 + k.val) * 768 + d.val = k.val * 768 + d.val
    omega)

/-- The weighted bias as one product, at (p, d): `∑ j, w (p, j) * b (j, d)`. -/
theorem bias_matmul_apply (w : FVec Ideal S1024x8 .f32) (b : Vec Ideal S8x768 .f32) (p : Fin 1024) (d : Fin 768) :
    matmul (F := Ideal) (φ₂ := .f32) dot_S1024x8_S8x768_S1024x768_1_0_0_1_n_n none w b (constant S1024x768 .f32 0x00000000#32) (ix2 p d)
      = ∑ j : Fin 8, w (ix2 p j) * b (ix2 j d) :=
  matmul_plain_zero_apply none w b p d

/-! ## The accumulators -/

/-- The first accumulator after expert 0: the weighted bias plus `w (p, 0)` times expert 0's product. -/
theorem pay3_apply (v0 : Vec Ideal S1024x768 .f32) (v1 : Vec Ideal S768x8 .f32) (v14 : Vec Ideal S8x768 .f32)
    (v18 : Vec Ideal S1x768x768 .f32) (p : Fin 1024) (d : Fin 768) :
    k0_pay3 (F := Ideal) v0 v1 v14 v18 (ix2 p d)
      = (∑ j : Fin 8, k0_pay1 (F := Ideal) v0 v1 (ix2 p j) * v14 (ix2 j d))
        + k0_pay1 (F := Ideal) v0 v1 (ix2 p 0) * slabOut (k0_pay2 (F := Ideal) v0) v18 p d := by
  show matmul (F := Ideal) dot_S1024x8_S8x768_S1024x768_1_0_0_1_n_n none (k0_pay1 (F := Ideal) v0 v1) v14
        (constant S1024x768 .f32 0x00000000#32) (ix2 p d)
      + broadcastTo S1024x768 (extractStridedSlice S1024x1 ![0, (0 : Fin 8).val] (k0_pay1 (F := Ideal) v0 v1)
          slices_S1024x8_o0_0_S1024x1) broadcasts_S1024x1_S1024x768 (ix2 p d)
        * matmul (F := Ideal) dot_S1024x768_S768x768_S1024x768_1_0_0_1_n_n none (k0_pay2 (F := Ideal) v0)
          (shapeCast S768x768 v18 shapeCasts_S1x768x768_S768x768) (constant S1024x768 .f32 0x00000000#32) (ix2 p d)
      = _
  rw [bias_matmul_apply, column_apply, slab_matmul_apply]

/-- The second accumulator after expert 1: zero plus `w (p, 1)` times expert 1's product. -/
theorem pay4_apply (v0 : Vec Ideal S1024x768 .f32) (v1 : Vec Ideal S768x8 .f32) (v21 : Vec Ideal S1x768x768 .f32)
    (p : Fin 1024) (d : Fin 768) :
    k0_pay4 (F := Ideal) v0 v1 v21 (ix2 p d)
      = 0 + k0_pay1 (F := Ideal) v0 v1 (ix2 p 1) * slabOut (k0_pay2 (F := Ideal) v0) v21 p d := by
  show Ideal.ofBits .f32 0x00000000#32
      + broadcastTo S1024x768 (extractStridedSlice S1024x1 ![0, (1 : Fin 8).val] (k0_pay1 (F := Ideal) v0 v1)
          slices_S1024x8_o0_1_S1024x1) broadcasts_S1024x1_S1024x768 (ix2 p d)
        * matmul (F := Ideal) dot_S1024x768_S768x768_S1024x768_1_0_0_1_n_n none (k0_pay2 (F := Ideal) v0)
          (shapeCast S768x768 v21 shapeCasts_S1x768x768_S768x768) (constant S1024x768 .f32 0x00000000#32) (ix2 p d)
      = _
  rw [Ideal.ofBits_zero_f32, column_apply, slab_matmul_apply]

/-- Expert 2's product, formed ahead of its use. -/
theorem pay5_apply (v0 : Vec Ideal S1024x768 .f32) (v32 : Vec Ideal S1x768x768 .f32) (p : Fin 1024) (d : Fin 768) :
    k0_pay5 (F := Ideal) v0 v32 (ix2 p d) = slabOut (k0_pay2 (F := Ideal) v0) v32 p d :=
  slab_matmul_apply _ v32 p d

/-- The stored value: the first accumulator with experts 2, 4, 6 added, plus the second with experts 3, 5, 7. -/
theorem pay6_apply (v13 : FVec Ideal S1024x8 .f32) (v17 : FVec Ideal S1024x768 .bf16) (v27 v31 v34 : FVec Ideal S1024x768 .f32)
    (v35 v46 v49 v60 v63 : Vec Ideal S1x768x768 .f32) (p : Fin 1024) (d : Fin 768) :
    k0_pay6 (F := Ideal) v13 v17 v27 v31 v34 v35 v46 v49 v60 v63 (ix2 p d)
      = (v27 (ix2 p d) + v13 (ix2 p 2) * v34 (ix2 p d) + v13 (ix2 p 4) * slabOut v17 v46 p d
          + v13 (ix2 p 6) * slabOut v17 v60 p d)
        + (v31 (ix2 p d) + v13 (ix2 p 3) * slabOut v17 v35 p d + v13 (ix2 p 5) * slabOut v17 v49 p d
          + v13 (ix2 p 7) * slabOut v17 v63 p d) := by
  show (v27 (ix2 p d)
        + broadcastTo S1024x768 (extractStridedSlice S1024x1 ![0, (2 : Fin 8).val] v13 slices_S1024x8_o0_2_S1024x1)
            broadcasts_S1024x1_S1024x768 (ix2 p d) * v34 (ix2 p d)
        + broadcastTo S1024x768 (extractStridedSlice S1024x1 ![0, (4 : Fin 8).val] v13 slices_S1024x8_o0_4_S1024x1)
            broadcasts_S1024x1_S1024x768 (ix2 p d)
          * matmul (F := Ideal) dot_S1024x768_S768x768_S1024x768_1_0_0_1_n_n none v17
              (shapeCast S768x768 v46 shapeCasts_S1x768x768_S768x768) (constant S1024x768 .f32 0x00000000#32) (ix2 p d)
        + broadcastTo S1024x768 (extractStridedSlice S1024x1 ![0, (6 : Fin 8).val] v13 slices_S1024x8_o0_6_S1024x1)
            broadcasts_S1024x1_S1024x768 (ix2 p d)
          * matmul (F := Ideal) dot_S1024x768_S768x768_S1024x768_1_0_0_1_n_n none v17
              (shapeCast S768x768 v60 shapeCasts_S1x768x768_S768x768) (constant S1024x768 .f32 0x00000000#32) (ix2 p d))
      + (v31 (ix2 p d)
        + broadcastTo S1024x768 (extractStridedSlice S1024x1 ![0, (3 : Fin 8).val] v13 slices_S1024x8_o0_3_S1024x1)
            broadcasts_S1024x1_S1024x768 (ix2 p d)
          * matmul (F := Ideal) dot_S1024x768_S768x768_S1024x768_1_0_0_1_n_n none v17
              (shapeCast S768x768 v35 shapeCasts_S1x768x768_S768x768) (constant S1024x768 .f32 0x00000000#32) (ix2 p d)
        + broadcastTo S1024x768 (extractStridedSlice S1024x1 ![0, (5 : Fin 8).val] v13 slices_S1024x8_o0_5_S1024x1)
            broadcasts_S1024x1_S1024x768 (ix2 p d)
          * matmul (F := Ideal) dot_S1024x768_S768x768_S1024x768_1_0_0_1_n_n none v17
              (shapeCast S768x768 v49 shapeCasts_S1x768x768_S768x768) (constant S1024x768 .f32 0x00000000#32) (ix2 p d)
        + broadcastTo S1024x768 (extractStridedSlice S1024x1 ![0, (7 : Fin 8).val] v13 slices_S1024x8_o0_7_S1024x1)
            broadcasts_S1024x1_S1024x768 (ix2 p d)
          * matmul (F := Ideal) dot_S1024x768_S768x768_S1024x768_1_0_0_1_n_n none v17
              (shapeCast S768x768 v63 shapeCasts_S1x768x768_S768x768) (constant S1024x768 .f32 0x00000000#32) (ix2 p d))
      = _
  rw [column_apply, column_apply, column_apply, column_apply, column_apply, column_apply,
    slab_matmul_apply, slab_matmul_apply, slab_matmul_apply, slab_matmul_apply, slab_matmul_apply]

end Cert.Moe.Body

end
-- ==== Proof.MoeKernel.lean ====
/-
  The kernel's result array is the layer in the split order.

  The grid has eight points; point `t` is handed rows `1024 t … 1024 t + 1023` of the token features and ALL of the gate
  weights, the expert matrices and the biases, and writes back rows `1024 t … 1024 t + 1023` of the result.  So the
  element (p, d) of what point `t` writes depends on row `1024 t + p` of the features only: its softmax weights are
  those of that token, and each expert's product is that token's.  The eight blocks tile the result array (row `r` is
  written by point `r / 1024`), hence the array after the run is one function of the argument arrays.
-/
import proofs.«148530_g6734508720218_cont_9to1c4b_726_17_alg».proof.Proof.Gen.KernelIdeal.Value
import proofs.«148530_g6734508720218_cont_9to1c4b_726_17_alg».proof.Proof.MoeBody

noncomputable section

open scoped BigOperators

open Idealize.ShloMosaic Idealize.ShloMosaic.TcCoe Idealize.SL.Sem
open Idealize.ShloMosaic.Pipeline (Dat)

namespace Cert.Moe.Ker

open Cert.KernelIdeal Cert.KernelIdeal.Gen Cert.KernelIdeal.Value Idealize.ShloMosaic.ValueIdx Cert.Moe Cert.Moe.Body Cert.Lib

variable (m : (ℓ : Loc nD τ sig) → Buf (Elt Ideal) ℓ) (ρ : Dev nD → PrngReg)

theorem hz2 : (![0, 0] : Fin 2 → Nat) = fun _ => 0 := funext fun a => by fin_cases a <;> rfl

/-! ## One element of the body's output block -/

/-- An expert's product when its matrix is loaded as the slab at offset `e` of the stack:
    `∑ k, x (p, k) * W (e, k, d)`. -/
theorem slab_ld (x0 : Vec Ideal S1024x768 .f32) (x2 : Vec Ideal S8x768x768 .f32) (e : Fin 8) (off : Fin 3 → ℕ)
    (inb : ∀ a, off a + S1x768x768.size a ≤ S8x768x768.size a) (h0 : off 0 = e.val) (h1 : off 1 = 0) (h2 : off 2 = 0)
    (p : Fin 1024) (d : Fin 768) :
    slabOut (k0_pay2 (F := Ideal) x0) (View.ld x2 (Rect.unit (s := S8x768x768) off S1x768x768.size inb)) p d
      = ∑ k : Fin 768, x0 (ix2 p k) * x2 (ix3 e k d) := by
  unfold slabOut
  refine Finset.sum_congr rfl fun k _ => ?_
  refine congrArg (x0 (ix2 p k) * ·) ?_
  show x2 _ = x2 (ix3 e k d)
  exact congrArg x2 (idx3_ext _ e k d
    (by show off 0 + 1 * 0 = e.val; omega) (by show off 1 + 1 * k.val = k.val; omega)
    (by show off 2 + 1 * d.val = d.val; omega))

/-- Element (p, d) of the block the body leaves: the split-order weighted sum for the block's token `p`. -/
theorem out_apply (x0 : Vec Ideal S1024x768 .f32) (x1 : Vec Ideal S768x8 .f32) (x2 : Vec Ideal S8x768x768 .f32)
    (x3 : Vec Ideal S8x768 .f32) (p : Fin 1024) (d : Fin 768) :
    out0_4 (F := Ideal) x0 x1 x2 x3 (ix2 p d)
      = mixSplit (softmaxRow (blockLogit x0 x1 p)) (fun e => ∑ k : Fin 768, x0 (ix2 p k) * x2 (ix3 e k d))
          (fun e => x3 (ix2 e d)) := by
  unfold out0_4
  rw [View.canon_unit_zero hz2]
  simp only [View.ld_unit_zero (S := S1024x768) hz2, View.ld_unit_zero (S := S768x8) hz2,
    View.ld_unit_zero (S := S8x768) hz2]
  rw [pay6_apply, pay3_apply, pay4_apply, pay5_apply]
  simp only [pay1_apply]
  rw [slab_ld x0 x2 0 ![0, 0, 0] _ rfl rfl rfl, slab_ld x0 x2 1 ![1, 0, 0] _ rfl rfl rfl,
    slab_ld x0 x2 2 ![2, 0, 0] _ rfl rfl rfl, slab_ld x0 x2 3 ![3, 0, 0] _ rfl rfl rfl,
    slab_ld x0 x2 4 ![4, 0, 0] _ rfl rfl rfl, slab_ld x0 x2 5 ![5, 0, 0] _ rfl rfl rfl,
    slab_ld x0 x2 6 ![6, 0, 0] _ rfl rfl rfl, slab_ld x0 x2 7 ![7, 0, 0] _ rfl rfl rfl]
  rfl

/-- The same when the block's features are rows `1024 T … 1024 T + 1023` of a whole array `X0`: element `y` of the
    block is the layer's split-order output at the array index `i` that `y` sits at. -/
theorem out_block (x0 : Vec Ideal S1024x768 .f32) (x1 : Vec Ideal S768x8 .f32) (x2 : Vec Ideal S8x768x768 .f32)
    (x3 : Vec Ideal S8x768 .f32) (X0 : S8192x768.Idx → EReal) (T : ℕ) (y : S1024x768.Idx) (i : S8192x768.Idx)
    (hi0 : (i 0).val = T * 1024 + (y 0).val) (hi1 : (i 1).val = (y 1).val)
    (h0 : ∀ (x : S1024x768.Idx) (k : S8192x768.Idx), (k 0).val = T * 1024 + (x 0).val → (k 1).val = (x 1).val →
      x0 x = X0 k) :
    out0_4 (F := Ideal) x0 x1 x2 x3 y = layerSplit X0 x1 x2 x3 i := by
  obtain ⟨p, d, rfl⟩ : ∃ (p : Fin 1024) (d : Fin 768), y = ix2 p d := ⟨y 0, y 1, eq_ix2 y⟩
  have hT : T * 1024 + p.val < 8192 := by have := idx2_lt0 i; omega
  obtain rfl : i = ix2 (⟨T * 1024 + p.val, hT⟩ : Fin 8192) d := idx2_ext _ _ _ hi0 hi1
  rw [out_apply]
  have hl : blockLogit x0 x1 p = logit X0 x1 ⟨T * 1024 + p.val, hT⟩ := funext fun e =>
    Finset.sum_congr rfl fun k _ => by rw [h0 (ix2 p k) (ix2 (⟨T * 1024 + p.val, hT⟩ : Fin 8192) k) rfl rfl]
  have hy : (fun e : Fin 8 => ∑ k : Fin 768, x0 (ix2 p k) * x2 (ix3 e k d)) = expertOut X0 x2 ⟨T * 1024 + p.val, hT⟩ d :=
    funext fun e => Finset.sum_congr rfl fun k _ => by
      rw [h0 (ix2 p k) (ix2 (⟨T * 1024 + p.val, hT⟩ : Fin 8192) k) rfl rfl]
  rw [hl, hy]
  rfl

/-! ## The blocks the points are handed -/

/-- The printed index maps over the eight grid points: the features' and the result's blocks move with the point
    along the rows, every other block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Point `t`'s block of the token features is rows `1024 t …` of the array. -/
theorem iblk0_apply (c : Dev nD) (t : Fin cfg0.N) (x : S1024x768.Idx) (k : S8192x768.Idx)
    (hk0 : (k 0).val = t.val * 1024 + (x 0).val) (hk1 : (k 1).val = (x 1).val) :
    (iblk m c 0 t : Vec Ideal S1024x768 .f32) x = (V m c main_arg0 : S8192x768.Idx → EReal) k := by
  obtain ⟨e0, e1, -⟩ := idx_facts t
  unfold iblk
  rw [View.read_apply]
  show V m c main_arg0 _ = V m c main_arg0 k
  refine congrArg (V m c main_arg0) ?_
  funext a
  apply Fin.ext
  match a with
  | ⟨0, _⟩ => show win0_0.index t (0 : Fin 2) * 1024 + 1 * (x 0).val = (k 0).val; rw [e0, hk0]; omega
  | ⟨1, _⟩ => show win0_0.index t (1 : Fin 2) * 768 + 1 * (x 1).val = (k 1).val; rw [e1, hk1]; omega

/-- Every point's block of the gate weights is the whole array. -/
theorem iblk1_eq (c : Dev nD) (t : Fin cfg0.N) :
    (iblk m c 1 t : Vec Ideal S768x8 .f32) = (V m c main_arg1 : S768x8.Idx → EReal) := by
  obtain ⟨-, -, e0, e1, -⟩ := idx_facts t
  funext x
  unfold iblk
  rw [View.read_apply]
  show V m c main_arg1 _ = V m c main_arg1 x
  refine congrArg (V m c main_arg1) ?_
  funext a
  apply Fin.ext
  match a with
  | ⟨0, _⟩ => show win0_1.index t (0 : Fin 2) * 768 + 1 * (x 0).val = (x 0).val; rw [e0]; omega
  | ⟨1, _⟩ => show win0_1.index t (1 : Fin 2) * 8 + 1 * (x 1).val = (x 1).val; rw [e1]; omega

/-- Every point's block of the expert matrices is the whole stack. -/
theorem iblk2_eq (c : Dev nD) (t : Fin cfg0.N) :
    (iblk m c 2 t : Vec Ideal S8x768x768 .f32) = (V m c main_arg2 : S8x768x768.Idx → EReal) := by
  obtain ⟨-, -, -, -, e0, e1, e2, -⟩ := idx_facts t
  funext x
  unfold iblk
  rw [View.read_apply]
  show V m c main_arg2 _ = V m c main_arg2 x
  refine congrArg (V m c main_arg2) ?_
  funext a
  apply Fin.ext
  match a with
  | ⟨0, _⟩ => show win0_2.index t (0 : Fin 3) * 8 + 1 * (x 0).val = (x 0).val; rw [e0]; omega
  | ⟨1, _⟩ => show win0_2.index t (1 : Fin 3) * 768 + 1 * (x 1).val = (x 1).val; rw [e1]; omega
  | ⟨2, _⟩ => show win0_2.index t (2 : Fin 3) * 768 + 1 * (x 2).val = (x 2).val; rw [e2]; omega

/-- Every point's block of the biases is the whole array. -/
theorem iblk3_eq (c : Dev nD) (t : Fin cfg0.N) :
    (iblk m c 3 t : Vec Ideal S8x768 .f32) = (V m c main_arg3 : S8x768.Idx → EReal) := by
  obtain ⟨-, -, -, -, -, -, -, e0, e1, -⟩ := idx_facts t
  funext x
  unfold iblk
  rw [View.read_apply]
  show V m c main_arg3 _ = V m c main_arg3 x
  refine congrArg (V m c main_arg3) ?_
  funext a
  apply Fin.ext
  match a with
  | ⟨0, _⟩ => show win0_3.index t (0 : Fin 2) * 8 + 1 * (x 0).val = (x 0).val; rw [e0]; omega
  | ⟨1, _⟩ => show win0_3.index t (1 : Fin 2) * 768 + 1 * (x 1).val = (x 1).val; rw [e1]; omega

/-! ## From the blocks to the array -/

/-- The result array as one function of the argument arrays as the region finds them. -/
abbrev result (c : Dev nD) : S8192x768.Idx → EReal :=
  layerSplit (V m c main_arg0) (V m c main_arg1) (V m c main_arg2) (V m c main_arg3)

/-- What point `t` writes back is block `t` of that function. -/
theorem flushed_eq (c : Dev nD) (t : Fin cfg0.N) :
    (dats m 0 c).flushed 4 t = ((cfg0.win 4).blk t).view.read (Elt Ideal) (result m c) := by
  rw [Value.flushed4, iblk1_eq m c t, iblk2_eq m c t, iblk3_eq m c t]
  obtain ⟨-, -, -, -, -, -, -, -, -, e40, e41⟩ := idx_facts t
  funext y
  show out0_4 (F := Ideal) (iblk m c 0 t : Vec Ideal S1024x768 .f32) (V m c main_arg1) (V m c main_arg2) (V m c main_arg3) y
    = result m c (((cfg0.win 4).blk t).view.emb y)
  refine out_block _ _ _ _ (V m c main_arg0) t.val y _ ?_ ?_ (fun x k h0 h1 => iblk0_apply m c t x k h0 h1)
  · show win0_4.index t (0 : Fin 2) * 1024 + 1 * (y 0).val = t.val * 1024 + (y 0).val
    rw [e40]; omega
  · show win0_4.index t (1 : Fin 2) * 768 + 1 * (y 1).val = (y 1).val
    rw [e41]; omega

/-- An index of the array is in point `t`'s block iff each coordinate is in the block's range on its axis. -/
theorem mem_blk (t : Fin cfg0.N) (i : S8192x768.Idx) :
    i ∈ ((cfg0.win 4).blk t).view.set
      ↔ ∀ a : Fin 2, win0_4.index t a * S1024x768.size a ≤ (i a).val
          ∧ (i a).val < win0_4.index t a * S1024x768.size a + S1024x768.size a := by
  show i ∈ ((View.whole main_v0).slice (win0_4.rect t)).set ↔ _
  rw [View.set_slice_whole, Rect.mem_set_unit]
  exact Iff.rfl

/-- Row `r` of the result is written by point `r / 1024`. -/
theorem cover (i : S8192x768.Idx) :
    ∃ t : Fin cfg0.N, (cfg0.win 4).flush t = true ∧ i ∈ ((cfg0.win 4).blk t).view.set := by
  have hi0 : (i 0).val < 8192 := idx2_lt0 i
  have hi1 : (i 1).val < 768 := idx2_lt1 i
  have hN : cfg0.N = 8 := N_0
  let t : Fin cfg0.N := ⟨(i 0).val / 1024, by rw [hN]; omega⟩
  obtain ⟨-, -, -, -, -, -, -, -, -, e40, e41⟩ := idx_facts t
  have ht : t.val = (i 0).val / 1024 := rfl
  refine ⟨t, flush0_4 t, ?_⟩
  rw [mem_blk]
  intro a
  match a with
  | ⟨0, _⟩ =>
    show win0_4.index t (0 : Fin 2) * 1024 ≤ (i 0).val ∧ (i 0).val < win0_4.index t (0 : Fin 2) * 1024 + 1024
    rw [e40, ht]; omega
  | ⟨1, _⟩ =>
    show win0_4.index t (1 : Fin 2) * 768 ≤ (i 1).val ∧ (i 1).val < win0_4.index t (1 : Fin 2) * 768 + 768
    rw [e41]; omega

/-- The result array after the run. -/
theorem final (c : Dev nD) : (dats m 0 c).arrAt 4 cfg0.N = result m c :=
  (dats m 0 c).arrAt_eq_of_cover 4 (result m c) (fun t _ => flushed_eq m c t) cover

/-- The kernel's run, read: the result array is the layer in the split order of the arguments as launched, and the
    arguments are unchanged. -/
theorem run : θ_run defs (onTc (τ := τ) (main (F := Ideal))) ⟨m, fun _ => 0, ρ⟩ fun r => ∀ c : Dev nD,
      r.2.mem ((c : Thread nD τ).loc main_v0)
        = layerSplit (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.Moe.Ker

end
-- ==== Proof.lean ====
/-
  A dense mixture-of-experts layer on 8192 tokens of 768 features with eight experts: every token's gate logits
  `x · G` are turned into eight softmax weights, every expert `e` offers `x · W_e + b_e`, and the output is the
  weighted sum `∑ e, w_e · (x · W_e + b_e)`.

  The reference adds the eight terms `w_e · (x · W_e + b_e)` up from zero, one expert after the other.  The kernel
  works on blocks of 1024 tokens; within a block it takes the same row softmax, forms the weighted bias as ONE product
  `w · B`, adds the even experts' `w_e · (x · W_e)` onto it and the odd experts' onto a second accumulator that starts
  at zero, and stores the sum of the two; the features enter the expert products narrowed to sixteen bits, which is the
  identity on extended reals.  The two sums differ by a regrouping, which is free, and by the distributive law
  `w · (y + b) = w · y + w · b`, which on the extended reals needs `w` to be a nonnegative real.  The weights are
  softmax weights of REAL logits, because the precondition makes the token features and the gate weights real; so they
  are nonnegative reals, and the two programs compute one function of their arguments.

  The modules: `MoeSpec` (the mathematics, no program), `MoeFinite` (the precondition gives real numbers),
  `MoeRef` (the reference's result is the layer in the reference order), `MoeBody` and `MoeKernel` (one element of
  the kernel body's block; the eight blocks tile the result, which is the layer in the split order).  The programs'
  frames are the generated ones, and the idealization rewrote nothing.
-/
import proofs.«148530_g6734508720218_cont_9to1c4b_726_17_alg».proof.Defs
import proofs.«148530_g6734508720218_cont_9to1c4b_726_17_alg».proof.Proof.Gen.Kernel
import proofs.«148530_g6734508720218_cont_9to1c4b_726_17_alg».proof.Proof.Gen.Kernel.Skeleton
import proofs.«148530_g6734508720218_cont_9to1c4b_726_17_alg».proof.Proof.Gen.Kernel.Launch
import proofs.«148530_g6734508720218_cont_9to1c4b_726_17_alg».proof.Proof.Gen.Kernel.Points
import proofs.«148530_g6734508720218_cont_9to1c4b_726_17_alg».proof.Proof.Gen.Kernel.Frame
import proofs.«148530_g6734508720218_cont_9to1c4b_726_17_alg».proof.Proof.Gen.KernelIdeal
import proofs.«148530_g6734508720218_cont_9to1c4b_726_17_alg».proof.Proof.Gen.KernelIdeal.Skeleton
import proofs.«148530_g6734508720218_cont_9to1c4b_726_17_alg».proof.Proof.Gen.KernelIdeal.Launch
import proofs.«148530_g6734508720218_cont_9to1c4b_726_17_alg».proof.Proof.Gen.KernelIdeal.Points
import proofs.«148530_g6734508720218_cont_9to1c4b_726_17_alg».proof.Proof.Gen.KernelIdeal.Frame
import proofs.«148530_g6734508720218_cont_9to1c4b_726_17_alg».proof.Proof.Gen.ReferenceIdeal
import proofs.«148530_g6734508720218_cont_9to1c4b_726_17_alg».proof.Proof.Gen.Pre_finite_inputs
import proofs.«148530_g6734508720218_cont_9to1c4b_726_17_alg».proof.Proof.Gen.KernelIdeal.Value
import proofs.«148530_g6734508720218_cont_9to1c4b_726_17_alg».proof.Proof.Gen.ReferenceIdeal.Run
import proofs.«148530_g6734508720218_cont_9to1c4b_726_17_alg».proof.Proof.Gen.ReferenceIdeal.Read
import proofs.«148530_g6734508720218_cont_9to1c4b_726_17_alg».proof.Proof.MoeSpec
import proofs.«148530_g6734508720218_cont_9to1c4b_726_17_alg».proof.Proof.MoeFinite
import proofs.«148530_g6734508720218_cont_9to1c4b_726_17_alg».proof.Proof.MoeRef
import proofs.«148530_g6734508720218_cont_9to1c4b_726_17_alg».proof.Proof.MoeKernel
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does the kernel read on extended reals. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten when the kernel was read on extended reals. -/
theorem preserves : Cert.preserves_Kernel_KernelIdeal := trivial

/-- The kernel's result is the layer in the split order, the reference's the layer in the reference order, of
    arguments that agree; the precondition makes the features and the gate weights real, and then the two orders
    give one array. -/
theorem algebraic : Cert.algebraic_KernelIdeal_ReferenceIdeal := by
  intro m ρ m' ρ' hpre hagree
  refine ⟨fun c => Cert.Moe.layerSplit
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.Moe.Ker.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hg⟩ := Cert.Moe.Finite.reals_of_pre _ _ _ _ (hpre c)
  rw [Cert.ReferenceIdeal.Read.val_main_v124_eq, Cert.Moe.Ref.result_eq, (hagree c).1, (hagree c).2.1,
    (hagree c).2.2.1, (hagree c).2.2.2]
  exact (Cert.Moe.layerSplit_eq_layerRef _ _ _ _ hx hg).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
